-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x8192 : Shape := ⟨2, ![2048, 8192]⟩
abbrev S8192 : Shape := ⟨1, ![8192]⟩
abbrev S2048x16 : Shape := ⟨2, ![2048, 16]⟩
abbrev S16 : Shape := ⟨1, ![16]⟩
abbrev S16x8192 : Shape := ⟨2, ![16, 8192]⟩
abbrev S8192x2048 : Shape := ⟨2, ![8192, 2048]⟩
abbrev S2048 : Shape := ⟨1, ![2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_
  bcast_S_S2048x16 : S_.BroadcastsInDim S2048x16 (![] : Fin 0 → Fin S2048x16.rank)
  reducesTo_S2048x16_S_d0_1 : S2048x16.ReducesTo [0, 1] S_
  bcast_S_S16 : S_.BroadcastsInDim S16 (![] : Fin 0 → Fin S16.rank)
  reducesTo_S16_S_d0 : S16.ReducesTo [0] S_
  bcast_S_S16x8192 : S_.BroadcastsInDim S16x8192 (![] : Fin 0 → Fin S16x8192.rank)
  reducesTo_S16x8192_S_d0_1 : S16x8192.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  main_v73

def fn_part3 {F : FTy → Type} [FloatOps F] (main_arg11 : FVec F S16x8192 .f32) (main_arg12 : FVec F S8192 .f32) (main_arg13 : FVec F S8192x2048 .f32) (main_arg14 : FVec F S2048 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x8192 .f32 := Host.absf main_arg11
  let main_cst_20 : FVec F S_ .f32 := constant S_ .f32 0x7F800000#32
  let main_v55 : FVec F S16x8192 .f32 := broadcastInDim S16x8192 ![] bcast_S_S16x8192 main_cst_20
  let main_v56 : IVec S16x8192 1 := cmpf .olt main_v54 main_v55
  let main_c_21 : IVec S_ 1 := constantI S_ 1 1#1
  let main_v57 : IVec S_ 1 := (fun x v => Host.reduce IntOp.andi x v reducesTo_S16x8192_S_d0_1 h_S_) main_v56 main_c_21
  let main_v58 : IVec S_ 1 := andi main_v53 main_v57
  let main_v59 : FVec F S8192 .f32 := Host.absf main_arg12
  let main_cst_22 : FVec F S_ .f32 := constant S_ .f32 0x7F800000#32
  let main_v60 : FVec F S8192 .f32 := broadcastInDim S8192 ![] bcast_S_S8192 main_cst_22
  let main_v61 : IVec S8192 1 := cmpf .olt main_v59 main_v60
  let main_c_23 : IVec S_ 1 := constantI S_ 1 1#1
  let main_v62 : IVec S_ 1 := (fun x v => Host.reduce IntOp.andi x v reducesTo_S8192_S_d0 h_S_) main_v61 main_c_23
  let main_v63 : IVec S_ 1 := andi main_v58 main_v62
  let main_v64 : FVec F S8192x2048 .f32 := Host.absf main_arg13
  let main_cst_24 : FVec F S_ .f32 := constant S_ .f32 0x7F800000#32
  let main_v65 : FVec F S8192x2048 .f32 := broadcastInDim S8192x2048 ![] bcast_S_S8192x2048 main_cst_24
  let main_v66 : IVec S8192x2048 1 := cmpf .olt main_v64 main_v65
  let main_c_25 : IVec S_ 1 := constantI S_ 1 1#1
  let main_v67 : IVec S_ 1 := (fun x v => Host.reduce IntOp.andi x v reducesTo_S8192x2048_S_d0_1 h_S_) main_v66 main_c_25
  fn_part4 (F := F) main_arg14 main_v63 main_v67

def fn_part2 {F : FTy → Type} [FloatOps F] (main_arg7 : FVec F S2048x8192 .f32) (main_arg8 : FVec F S8192 .f32) (main_arg9 : FVec F S2048x16 .f32) (main_arg10 : FVec F S16 .f32) (main_arg11 : FVec F S16x8192 .f32) (main_arg12 : FVec F S8192 .f32) (main_arg13 : FVec F S8192x2048 .f32) (main_arg14 : FVec F S2048 .f32) (main_v33 : IVec S_ 1) : IVec S_ 1 :=
  let main_v34 : FVec F S2048x8192 .f32 := Host.absf main_arg7
  let main_cst_12 : FVec F S_ .f32 := constant S_ .f32 0x7F800000#32
  let main_v35 : FVec F S2048x8192 .f32 := broadcastInDim S2048x8192 ![] bcast_S_S2048x8192 main_cst_12
  let main_v36 : IVec S2048x8192 1 := cmpf .olt main_v34 main_v35
  let main_c_13 : IVec S_ 1 := constantI S_ 1 1#1
  let main_v37 : IVec S_ 1 := (fun x v => Host.reduce IntOp.andi x v reducesTo_S2048x8192_S_d0_1 h_S_) main_v36 main_c_13
  let main_v38 : IVec S_ 1 := andi main_v33 main_v37
  let main_v39 : FVec F S8192 .f32 := Host.absf main_arg8
  let main_cst_14 : FVec F S_ .f32 := constant S_ .f32 0x7F800000#32
  let main_v40 : FVec F S8192 .f32 := broadcastInDim S8192 ![] bcast_S_S8192 main_cst_14
  let main_v41 : IVec S8192 1 := cmpf .olt main_v39 main_v40
  let main_c_15 : IVec S_ 1 := constantI S_ 1 1#1
  let main_v42 : IVec S_ 1 := (fun x v => Host.reduce IntOp.andi x v reducesTo_S8192_S_d0 h_S_) main_v41 main_c_15
  let main_v43 : IVec S_ 1 := andi main_v38 main_v42
  let main_v44 : FVec F S2048x16 .f32 := Host.absf main_arg9
  let main_cst_16 : FVec F S_ .f32 := constant S_ .f32 0x7F800000#32
  let main_v45 : FVec F S2048x16 .f32 := broadcastInDim S2048x16 ![] bcast_S_S2048x16 main_cst_16
  let main_v46 : IVec S2048x16 1 := cmpf .olt main_v44 main_v45
  let main_c_17 : IVec S_ 1 := constantI S_ 1 1#1
  let main_v47 : IVec S_ 1 := (fun x v => Host.reduce IntOp.andi x v reducesTo_S2048x16_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_arg11 main_arg12 main_arg13 main_arg14 main_v48 main_v49 main_v50

def fn_part1 {F : FTy → Type} [FloatOps F] (main_arg4 : FVec F S16 .f32) (main_arg5 : FVec F S16x8192 .f32) (main_arg6 : FVec F S8192 .f32) (main_arg7 : FVec F S2048x8192 .f32) (main_arg8 : FVec F S8192 .f32) (main_arg9 : FVec F S2048x16 .f32) (main_arg10 : FVec F S16 .f32) (main_arg11 : FVec F S16x8192 .f32) (main_arg12 : FVec F S8192 .f32) (main_arg13 : FVec F S8192x2048 .f32) (main_arg14 : FVec F S2048 .f32) (main_v13 : IVec S_ 1) (main_v16 : IVec S2048x16 1) : IVec S_ 1 :=
  let main_c_5 : IVec S_ 1 := constantI S_ 1 1#1
  let main_v17 : IVec S_ 1 := (fun x v => Host.reduce IntOp.andi x v reducesTo_S2048x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x8192 .f32 := Host.absf main_arg5
  let main_cst_8 : FVec F S_ .f32 := constant S_ .f32 0x7F800000#32
  let main_v25 : FVec F S16x8192 .f32 := broadcastInDim S16x8192 ![] bcast_S_S16x8192 main_cst_8
  let main_v26 : IVec S16x8192 1 := cmpf .olt main_v24 main_v25
  let main_c_9 : IVec S_ 1 := constantI S_ 1 1#1
  let main_v27 : IVec S_ 1 := (fun x v => Host.reduce IntOp.andi x v reducesTo_S16x8192_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4x2048x2048 .f32) (main_arg1 : FVec F S2048x8192 .f32) (main_arg2 : FVec F S8192 .f32) (main_arg3 : FVec F S2048x16 .f32) (main_arg4 : FVec F S16 .f32) (main_arg5 : FVec F S16x8192 .f32) (main_arg6 : FVec F S8192 .f32) (main_arg7 : FVec F S2048x8192 .f32) (main_arg8 : FVec F S8192 .f32) (main_arg9 : FVec F S2048x16 .f32) (main_arg10 : FVec F S16 .f32) (main_arg11 : FVec F S16x8192 .f32) (main_arg12 : FVec F S8192 .f32) (main_arg13 : FVec F S8192x2048 .f32) (main_arg14 : FVec F S2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x8192 .f32 := Host.absf main_arg1
  let main_cst_0 : FVec F S_ .f32 := constant S_ .f32 0x7F800000#32
  let main_v5 : FVec F S2048x8192 .f32 := broadcastInDim S2048x8192 ![] bcast_S_S2048x8192 main_cst_0
  let main_v6 : IVec S2048x8192 1 := cmpf .olt main_v4 main_v5
  let main_c_1 : IVec S_ 1 := constantI S_ 1 1#1
  let main_v7 : IVec S_ 1 := (fun x v => Host.reduce IntOp.andi x v reducesTo_S2048x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S2048x16 .f32 := Host.absf main_arg3
  let main_cst_4 : FVec F S_ .f32 := constant S_ .f32 0x7F800000#32
  let main_v15 : FVec F S2048x16 .f32 := broadcastInDim S2048x16 ![] bcast_S_S2048x16 main_cst_4
  let main_v16 : IVec S2048x16 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4x2048x2048 : Shape := ⟨3, ![4, 2048, 2048]⟩
abbrev S2048x8192 : Shape := ⟨2, ![2048, 8192]⟩
abbrev S8192 : Shape := ⟨1, ![8192]⟩
abbrev S2048x16 : Shape := ⟨2, ![2048, 16]⟩
abbrev S16 : Shape := ⟨1, ![16]⟩
abbrev S16x8192 : Shape := ⟨2, ![16, 8192]⟩
abbrev S8192x2048 : Shape := ⟨2, ![8192, 2048]⟩
abbrev S2048 : Shape := ⟨1, ![2048]⟩
abbrev S1x8192 : Shape := ⟨2, ![1, 8192]⟩
abbrev S1x16 : Shape := ⟨2, ![1, 16]⟩
abbrev S1x2048 : Shape := ⟨2, ![1, 2048]⟩
abbrev S512x2048 : Shape := ⟨2, ![512, 2048]⟩
abbrev S2048x512 : Shape := ⟨2, ![2048, 512]⟩
abbrev S1x512 : Shape := ⟨2, ![1, 512]⟩
abbrev S16x512 : Shape := ⟨2, ![16, 512]⟩
abbrev S512x512 : Shape := ⟨2, ![512, 512]⟩
abbrev S512x16 : Shape := ⟨2, ![512, 16]⟩

abbrev nBuf : Space → Nat
  | .hbm => 33
  | .vmem => 28
  | .smem => 0
  | _ => 0

abbrev bufTy : (tb : Table) → Fin (tcTables nBuf tb) → BufTy
  | .hbm, ⟨0, _⟩ => ⟨S4x2048x2048, .f32⟩
  | .hbm, ⟨1, _⟩ => ⟨S2048x8192, .f32⟩
  | .hbm, ⟨2, _⟩ => ⟨S8192, .f32⟩
  | .hbm, ⟨3, _⟩ => ⟨S2048x16, .f32⟩
  | .hbm, ⟨4, _⟩ => ⟨S16, .f32⟩
  | .hbm, ⟨5, _⟩ => ⟨S16x8192, .f32⟩
  | .hbm, ⟨6, _⟩ => ⟨S8192, .f32⟩
  | .hbm, ⟨7, _⟩ => ⟨S2048x8192, .f32⟩
  | .hbm, ⟨8, _⟩ => ⟨S8192, .f32⟩
  | .hbm, ⟨9, _⟩ => ⟨S2048x16, .f32⟩
  | .hbm, ⟨10, _⟩ => ⟨S16, .f32⟩
  | .hbm, ⟨11, _⟩ => ⟨S16x8192, .f32⟩
  | .hbm, ⟨12, _⟩ => ⟨S8192, .f32⟩
  | .hbm, ⟨13, _⟩ => ⟨S8192x2048, .f32⟩
  | .hbm, ⟨14, _⟩ => ⟨S2048, .f32⟩
  | .hbm, ⟨15, _⟩ => ⟨S8192x2048, .f32⟩
  | .hbm, ⟨16, _⟩ => ⟨S8192x2048, .bf16⟩
  | .hbm, ⟨17, _⟩ => ⟨S2048x8192, .bf16⟩
  | .hbm, ⟨18, _⟩ => ⟨S2048x16, .bf16⟩
  | .hbm, ⟨19, _⟩ => ⟨S16x8192, .bf16⟩
  | .hbm, ⟨20, _⟩ => ⟨S2048x8192, .bf16⟩
  | .hbm, ⟨21, _⟩ => ⟨S2048x16, .bf16⟩
  | .hbm, ⟨22, _⟩ => ⟨S16x8192, .bf16⟩
  | .hbm, ⟨23, _⟩ => ⟨S8192x2048, .bf16⟩
  | .hbm, ⟨24, _⟩ => ⟨S1x8192, .f32⟩
  | .hbm, ⟨25, _⟩ => ⟨S1x16, .f32⟩
  | .hbm, ⟨26, _⟩ => ⟨S1x8192, .f32⟩
  | .hbm, ⟨27, _⟩ => ⟨S1x8192, .f32⟩
  | .hbm, ⟨28, _⟩ => ⟨S1x16, .f32⟩
  | .hbm, ⟨29, _⟩ => ⟨S1x8192, .f32⟩
  | .hbm, ⟨30, _⟩ => ⟨S1x2048, .f32⟩
  | .hbm, ⟨31, _⟩ => ⟨S8192x2048, .f32⟩
  | .hbm, ⟨32, _⟩ => ⟨S4x2048x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S2048x16, .bf16⟩
  | .local _ .vmem, ⟨7, _⟩ => ⟨S1x16, .f32⟩
  | .local _ .vmem, ⟨8, _⟩ => ⟨S16x512, .bf16⟩
  | .local _ .vmem, ⟨9, _⟩ => ⟨S16x512, .bf16⟩
  | .local _ .vmem, ⟨10, _⟩ => ⟨S1x512, .f32⟩
  | .local _ .vmem, ⟨11, _⟩ => ⟨S1x512, .f32⟩
  | .local _ .vmem, ⟨12, _⟩ => ⟨S2048x512, .bf16⟩
  | .local _ .vmem, ⟨13, _⟩ => ⟨S2048x512, .bf16⟩
  | .local _ .vmem, ⟨14, _⟩ => ⟨S1x512, .f32⟩
  | .local _ .vmem, ⟨15, _⟩ => ⟨S1x512, .f32⟩
  | .local _ .vmem, ⟨16, _⟩ => ⟨S2048x16, .bf16⟩
  | .local _ .vmem, ⟨17, _⟩ => ⟨S1x16, .f32⟩
  | .local _ .vmem, ⟨18, _⟩ => ⟨S16x512, .bf16⟩
  | .local _ .vmem, ⟨19, _⟩ => ⟨S16x512, .bf16⟩
  | .local _ .vmem, ⟨20, _⟩ => ⟨S1x512, .f32⟩
  | .local _ .vmem, ⟨21, _⟩ => ⟨S1x512, .f32⟩
  | .local _ .vmem, ⟨22, _⟩ => ⟨S512x2048, .bf16⟩
  | .local _ .vmem, ⟨23, _⟩ => ⟨S512x2048, .bf16⟩
  | .local _ .vmem, ⟨24, _⟩ => ⟨S1x2048, .f32⟩
  | .local _ .vmem, ⟨25, _⟩ => ⟨S512x2048, .f32⟩
  | .local _ .vmem, ⟨26, _⟩ => ⟨S512x2048, .f32⟩
  | .local _ .vmem, ⟨27, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v95 : BitVec 1 := Scalar.cmpi .eq arg1 c15_i32
  let v96 : BitVec 32 := Scalar.extui v95
  let c0_i32_47 : BitVec 32 := 0#32
  let v97 : BitVec 1 := Scalar.cmpi .ne v96 c0_i32_47
  v97

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S2048x16 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S16x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S512x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

class Facts₀ : Prop where
  shapeCasts_S4x2048x2048_S8192x2048 : S4x2048x2048.ShapeCasts S8192x2048
  bitsLt_bf16_f32 : FTy.bits .bf16 < FTy.bits .f32
  shapeCasts_S8192_S1x8192 : S8192.ShapeCasts S1x8192
  shapeCasts_S16_S1x16 : S16.ShapeCasts S1x16
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S512x16 : S1x16.Broadcasts S512x16
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S8192x2048_S4x2048x2048 : S8192x2048.ShapeCasts S4x2048x2048
  dot_S512x2048_S2048x512_S512x512_1_0_0_1_n_n_wf : DotDims.WF S512x2048 S2048x512 S512x512 [1] [0] [0] [1] [] []
  dot_S512x2048_S2048x16_S512x16_1_0_0_1_n_n_wf : DotDims.WF S512x2048 S2048x16 S512x16 [1] [0] [0] [1] [] []
  dot_S512x16_S16x512_S512x512_1_0_0_1_n_n_wf : DotDims.WF S512x16 S16x512 S512x512 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x8192.size a
  hwx0_1 : ∀ i : grid0.Coords, EltTy.bits .bf16 = 32 ∨ (Rect.block (s := S2048x8192) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x8192.size a
  hwx0_2 : ∀ i : grid0.Coords, EltTy.bits .f32 = 32 ∨ (Rect.block (s := S1x8192) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x16.size a ≤ S2048x16.size a
  hwx0_3 : ∀ i : grid0.Coords, EltTy.bits .bf16 = 32 ∨ (Rect.block (s := S2048x16) S2048x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x512.size a ≤ S16x8192.size a
  hwx0_5 : ∀ i : grid0.Coords, EltTy.bits .bf16 = 32 ∨ (Rect.block (s := S16x8192) S16x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x8192.size a
  hwx0_6 : ∀ i : grid0.Coords, EltTy.bits .f32 = 32 ∨ (Rect.block (s := S1x8192) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x512.size a ≤ S2048x8192.size a
  hwx0_7 : ∀ i : grid0.Coords, EltTy.bits .bf16 = 32 ∨ (Rect.block (s := S2048x8192) S2048x512.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x8192.size a
  hwx0_8 : ∀ i : grid0.Coords, EltTy.bits .f32 = 32 ∨ (Rect.block (s := S1x8192) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x16.size a ≤ S2048x16.size a
  hwx0_9 : ∀ i : grid0.Coords, EltTy.bits .bf16 = 32 ∨ (Rect.block (s := S2048x16) S2048x16.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x16.size a ≤ S1x16.size a
  hwx0_10 : ∀ i : grid0.Coords, EltTy.bits .f32 = 32 ∨ (Rect.block (s := S1x16) S1x16.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S16x512.size a ≤ S16x8192.size a
  hwx0_11 : ∀ i : grid0.Coords, EltTy.bits .bf16 = 32 ∨ (Rect.block (s := S16x8192) S16x512.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x8192.size a
  hwx0_12 : ∀ i : grid0.Coords, EltTy.bits .f32 = 32 ∨ (Rect.block (s := S1x8192) S1x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x2048.size a ≤ S8192x2048.size a
  hwx0_13 : ∀ i : grid0.Coords, EltTy.bits .bf16 = 32 ∨ (Rect.block (s := S8192x2048) S512x2048.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x2048.size a ≤ S1x2048.size a
  hwx0_14 : ∀ i : grid0.Coords, EltTy.bits .f32 = 32 ∨ (Rect.block (s := S1x2048) S1x2048.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x2048.size a ≤ S8192x2048.size a
  hwx0_15 : ∀ i : grid0.Coords, EltTy.bits .f32 = 32 ∨ (Rect.block (s := S8192x2048) S512x2048.size (cc0_transform_15 i) (hinb0_15 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x2048_S2048x16_S512x16_1_0_0_1_n_n : DotDims S512x2048 S2048x16 S512x16 where
  lhsContracting := [1]
  rhsContracting := [0]
  lhsNonContracting := [0]
  rhsNonContracting := [1]
  lhsBatch := []
  rhsBatch := []
  wf := dot_S512x2048_S2048x16_S512x16_1_0_0_1_n_n_wf
def dot_S512x16_S16x512_S512x512_1_0_0_1_n_n : DotDims S512x16 S16x512 S512x512 where
  lhsContracting := [1]
  rhsContracting := [0]
  lhsNonContracting := [0]
  rhsNonContracting := [1]
  lhsBatch := []
  rhsBatch := []
  wf := dot_S512x16_S16x512_S512x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S16x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5) S2048x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6) S2048x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S1x16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v7) S16x512.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v14) S1x512.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v8) S512x2048.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v15) S1x2048.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v16) S512x2048.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev idle0 : Fin 16 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k0_cond2 i == 1#1) | ⟨_ + 16, h⟩ => absurd h (Nat.not_lt.2 (Nat.le_add_left _ _))

class Facts : Prop extends Facts₀ where

variable [Facts]
-- ==== ReferenceIdeal.lean ====
abbrev S4x2048x2048 : Shape := ⟨3, ![4, 2048, 2048]⟩
abbrev S2048x8192 : Shape := ⟨2, ![2048, 8192]⟩
abbrev S8192 : Shape := ⟨1, ![8192]⟩
abbrev S2048x16 : Shape := ⟨2, ![2048, 16]⟩
abbrev S16 : Shape := ⟨1, ![16]⟩
abbrev S16x8192 : Shape := ⟨2, ![16, 8192]⟩
abbrev S8192x2048 : Shape := ⟨2, ![8192, 2048]⟩
abbrev S2048 : Shape := ⟨1, ![2048]⟩
abbrev S4x2048x8192 : Shape := ⟨3, ![4, 2048, 8192]⟩
abbrev S1x1x8192 : Shape := ⟨3, ![1, 1, 8192]⟩
abbrev S4x2048x16 : Shape := ⟨3, ![4, 2048, 16]⟩
abbrev S1x1x16 : Shape := ⟨3, ![1, 1, 16]⟩
abbrev S_ : Shape := ⟨0, ![]⟩
abbrev S1x1x2048 : Shape := ⟨3, ![1, 1, 2048]⟩

abbrev nBuf : Space → Nat
  | .hbm => 87
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x8192, .f32⟩
  | .hbm, ⟨2, _⟩ => ⟨S8192, .f32⟩
  | .hbm, ⟨3, _⟩ => ⟨S2048x16, .f32⟩
  | .hbm, ⟨4, _⟩ => ⟨S16, .f32⟩
  | .hbm, ⟨5, _⟩ => ⟨S16x8192, .f32⟩
  | .hbm, ⟨6, _⟩ => ⟨S8192, .f32⟩
  | .hbm, ⟨7, _⟩ => ⟨S2048x8192, .f32⟩
  | .hbm, ⟨8, _⟩ => ⟨S8192, .f32⟩
  | .hbm, ⟨9, _⟩ => ⟨S2048x16, .f32⟩
  | .hbm, ⟨10, _⟩ => ⟨S16, .f32⟩
  | .hbm, ⟨11, _⟩ => ⟨S16x8192, .f32⟩
  | .hbm, ⟨12, _⟩ => ⟨S8192, .f32⟩
  | .hbm, ⟨13, _⟩ => ⟨S8192x2048, .f32⟩
  | .hbm, ⟨14, _⟩ => ⟨S2048, .f32⟩
  | .hbm, ⟨15, _⟩ => ⟨S4x2048x8192, .f32⟩
  | .hbm, ⟨16, _⟩ => ⟨S1x1x8192, .f32⟩
  | .hbm, ⟨17, _⟩ => ⟨S4x2048x8192, .f32⟩
  | .hbm, ⟨18, _⟩ => ⟨S4x2048x8192, .f32⟩
  | .hbm, ⟨19, _⟩ => ⟨S4x2048x16, .f32⟩
  | .hbm, ⟨20, _⟩ => ⟨S1x1x16, .f32⟩
  | .hbm, ⟨21, _⟩ => ⟨S4x2048x16, .f32⟩
  | .hbm, ⟨22, _⟩ => ⟨S4x2048x16, .f32⟩
  | .hbm, ⟨23, _⟩ => ⟨S4x2048x8192, .f32⟩
  | .hbm, ⟨24, _⟩ => ⟨S1x1x8192, .f32⟩
  | .hbm, ⟨25, _⟩ => ⟨S4x2048x8192, .f32⟩
  | .hbm, ⟨26, _⟩ => ⟨S4x2048x8192, .f32⟩
  | .hbm, ⟨27, _⟩ => ⟨S_, .f32⟩
  | .hbm, ⟨28, _⟩ => ⟨S4x2048x8192, .f32⟩
  | .hbm, ⟨29, _⟩ => ⟨S4x2048x8192, .f32⟩
  | .hbm, ⟨30, _⟩ => ⟨S4x2048x8192, .f32⟩
  | .hbm, ⟨31, _⟩ => ⟨S4x2048x8192, .f32⟩
  | .hbm, ⟨32, _⟩ => ⟨S4x2048x8192, .f32⟩
  | .hbm, ⟨33, _⟩ => ⟨S_, .f32⟩
  | .hbm, ⟨34, _⟩ => ⟨S4x2048x8192, .f32⟩
  | .hbm, ⟨35, _⟩ => ⟨S4x2048x8192, .f32⟩
  | .hbm, ⟨36, _⟩ => ⟨S4x2048x8192, .f32⟩
  | .hbm, ⟨37, _⟩ => ⟨S_, .f32⟩
  | .hbm, ⟨38, _⟩ => ⟨S4x2048x8192, .f32⟩
  | .hbm, ⟨39, _⟩ => ⟨S4x2048x8192, .f32⟩
  | .hbm, ⟨40, _⟩ => ⟨S4x2048x8192, .f32⟩
  | .hbm, ⟨41, _⟩ => ⟨S_, .f32⟩
  | .hbm, ⟨42, _⟩ => ⟨S4x2048x8192, .f32⟩
  | .hbm, ⟨43, _⟩ => ⟨S4x2048x8192, .f32⟩
  | .hbm, ⟨44, _⟩ => ⟨S_, .f32⟩
  | .hbm, ⟨45, _⟩ => ⟨S4x2048x8192, .f32⟩
  | .hbm, ⟨46, _⟩ => ⟨S4x2048x8192, .f32⟩
  | .hbm, ⟨47, _⟩ => ⟨S4x2048x8192, .f32⟩
  | .hbm, ⟨48, _⟩ => ⟨S_, .f32⟩
  | .hbm, ⟨49, _⟩ => ⟨S4x2048x8192, .f32⟩
  | .hbm, ⟨50, _⟩ => ⟨S4x2048x8192, .f32⟩
  | .hbm, ⟨51, _⟩ => ⟨S4x2048x8192, .f32⟩
  | .hbm, ⟨52, _⟩ => ⟨S4x2048x8192, .f32⟩
  | .hbm, ⟨53, _⟩ => ⟨S4x2048x8192, .i1⟩
  | .hbm, ⟨54, _⟩ => ⟨S4x2048x8192, .f32⟩
  | .hbm, ⟨55, _⟩ => ⟨S4x2048x8192, .f32⟩
  | .hbm, ⟨56, _⟩ => ⟨S4x2048x8192, .f32⟩
  | .hbm, ⟨57, _⟩ => ⟨S4x2048x8192, .f32⟩
  | .hbm, ⟨58, _⟩ => ⟨S4x2048x8192, .f32⟩
  | .hbm, ⟨59, _⟩ => ⟨S4x2048x8192, .f32⟩
  | .hbm, ⟨60, _⟩ => ⟨S4x2048x8192, .f32⟩
  | .hbm, ⟨61, _⟩ => ⟨S4x2048x8192, .f32⟩
  | .hbm, ⟨62, _⟩ => ⟨S_, .f32⟩
  | .hbm, ⟨63, _⟩ => ⟨S4x2048x8192, .f32⟩
  | .hbm, ⟨64, _⟩ => ⟨S4x2048x8192, .f32⟩
  | .hbm, ⟨65, _⟩ => ⟨S4x2048x8192, .f32⟩
  | .hbm, ⟨66, _⟩ => ⟨S4x2048x8192, .f32⟩
  | .hbm, ⟨67, _⟩ => ⟨S1x1x8192, .f32⟩
  | .hbm, ⟨68, _⟩ => ⟨S4x2048x8192, .f32⟩
  | .hbm, ⟨69, _⟩ => ⟨S4x2048x8192, .f32⟩
  | .hbm, ⟨70, _⟩ => ⟨S4x2048x16, .f32⟩
  | .hbm, ⟨71, _⟩ => ⟨S1x1x16, .f32⟩
  | .hbm, ⟨72, _⟩ => ⟨S4x2048x16, .f32⟩
  | .hbm, ⟨73, _⟩ => ⟨S4x2048x16, .f32⟩
  | .hbm, ⟨74, _⟩ => ⟨S4x2048x8192, .f32⟩
  | .hbm, ⟨75, _⟩ => ⟨S1x1x8192, .f32⟩
  | .hbm, ⟨76, _⟩ => ⟨S4x2048x8192, .f32⟩
  | .hbm, ⟨77, _⟩ => ⟨S4x2048x8192, .f32⟩
  | .hbm, ⟨78, _⟩ => ⟨S_, .f32⟩
  | .hbm, ⟨79, _⟩ => ⟨S4x2048x8192, .f32⟩
  | .hbm, ⟨80, _⟩ => ⟨S4x2048x8192, .f32⟩
  | .hbm, ⟨81, _⟩ => ⟨S4x2048x8192, .f32⟩
  | .hbm, ⟨82, _⟩ => ⟨S4x2048x8192, .f32⟩
  | .hbm, ⟨83, _⟩ => ⟨S4x2048x2048, .f32⟩
  | .hbm, ⟨84, _⟩ => ⟨S1x1x2048, .f32⟩
  | .hbm, ⟨85, _⟩ => ⟨S4x2048x2048, .f32⟩
  | .hbm, ⟨86, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_v28 : Ref sig .tc := ⟨.hbm, 61, rfl⟩
abbrev main_cst_4 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_5 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩

abbrev nD : Nat := 1
abbrev τ : Topo := Topo.v7x

variable {F : FTy → Type} [FloatOps F]

class Facts₀ : Prop where
  bcast_S8192_S1x1x8192_2 : S8192.BroadcastsInDim S1x1x8192 (![2] : Fin 1 → Fin S1x1x8192.rank)
  bcast_S1x1x8192_S4x2048x8192_0_1_2 : S1x1x8192.BroadcastsInDim S4x2048x8192 (![0, 1, 2] : Fin 3 → Fin S4x2048x8192.rank)
  bcast_S16_S1x1x16_2 : S16.BroadcastsInDim S1x1x16 (![2] : Fin 1 → Fin S1x1x16.rank)
  bcast_S1x1x16_S4x2048x16_0_1_2 : S1x1x16.BroadcastsInDim S4x2048x16 (![0, 1, 2] : Fin 3 → Fin S4x2048x16.rank)
  bcast_S_S4x2048x8192 : S_.BroadcastsInDim S4x2048x8192 (![] : Fin 0 → Fin S4x2048x8192.rank)
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  dot_S4x2048x2048_S2048x8192_S4x2048x8192_2_0_01_1_n_n_wf : DotDims.WF S4x2048x2048 S2048x8192 S4x2048x8192 [2] [0] [0, 1] [1] [] []
  dot_S4x2048x2048_S2048x16_S4x2048x16_2_0_01_1_n_n_wf : DotDims.WF S4x2048x2048 S2048x16 S4x2048x16 [2] [0] [0, 1] [1] [] []
  dot_S4x2048x16_S16x8192_S4x2048x8192_2_0_01_1_n_n_wf : DotDims.WF S4x2048x16 S16x8192 S4x2048x8192 [2] [0] [0, 1] [1] [] []
  dot_S4x2048x8192_S8192x2048_S4x2048x2048_2_0_01_1_n_n_wf : DotDims.WF S4x2048x8192 S8192x2048 S4x2048x2048 [2] [0] [0, 1] [1] [] []

variable [Facts₀]

def dot_S4x2048x2048_S2048x8192_S4x2048x8192_2_0_01_1_n_n : DotDims S4x2048x2048 S2048x8192 S4x2048x8192 where
  lhsContracting := [2]
  rhsContracting := [0]
  lhsNonContracting := [0, 1]
  rhsNonContracting := [1]
  lhsBatch := []
  rhsBatch := []
  wf := dot_S4x2048x2048_S2048x8192_S4x2048x8192_2_0_01_1_n_n_wf
def dot_S4x2048x2048_S2048x16_S4x2048x16_2_0_01_1_n_n : DotDims S4x2048x2048 S2048x16 S4x2048x16 where
  lhsContracting := [2]
  rhsContracting := [0]
  lhsNonContracting := [0, 1]
  rhsNonContracting := [1]
  lhsBatch := []
  rhsBatch := []
  wf := dot_S4x2048x2048_S2048x16_S4x2048x16_2_0_01_1_n_n_wf
def dot_S4x2048x16_S16x8192_S4x2048x8192_2_0_01_1_n_n : DotDims S4x2048x16 S16x8192 S4x2048x8192 where
  lhsContracting := [2]
  rhsContracting := [0]
  lhsNonContracting := [0, 1]
  rhsNonContracting := [1]
  lhsBatch := []
  rhsBatch := []
  wf := dot_S4x2048x16_S16x8192_S4x2048x8192_2_0_01_1_n_n_wf
def dot_S4x2048x8192_S8192x2048_S4x2048x2048_2_0_01_1_n_n : DotDims S4x2048x8192 S8192x2048 S4x2048x2048 where
  lhsContracting := [2]
  rhsContracting := [0]
  lhsNonContracting := [0, 1]
  rhsNonContracting := [1]
  lhsBatch := []
  rhsBatch := []
  wf := dot_S4x2048x8192_S8192x2048_S4x2048x2048_2_0_01_1_n_n_wf

class Facts : Prop extends Facts₀ where

variable [Facts]
-- ==== Proof.LibBlockSum.lean ====
/-
  A sum over `a · b` positions cut into `a` consecutive blocks of `b`.

  The positions `0 … a·b − 1` are the pairs (block `k`, entry `j` of the block) at `b · k + j`; a sum over all positions is
  the sum over the blocks of the sums inside each block. Stated in any commutative additive monoid: only
  commutativity and associativity of `+` are used, so it holds on the extended reals with no finiteness assumption.
  This is the law by which a contraction accumulated block by block equals the whole contraction.
-/
import Mathlib

namespace Cert.LibBlockSum

/-- The position of entry `j` of block `k`, among `a` consecutive blocks of `b` positions each. -/
def pos {a b : ℕ} (k : Fin a) (j : Fin b) : Fin (a * b) := finProdFinEquiv (k, j)

/-- It is `b · k + j` (written `j + b · k`). -/
theorem pos_val {a b : ℕ} (k : Fin a) (j : Fin b) : (pos k j).val = j.val + b * k.val := rfl

/-- A sum over `Fin (a * b)` is the sum over the `a` blocks `k` of the sums over each block's `b` entries. -/
theorem sum_blocks {M : Type*} [AddCommMonoid M] {a b : ℕ} (f : Fin (a * b) → M) :
    ∑ h : Fin (a * b), f h = ∑ k : Fin a, ∑ j : Fin b, f (pos k j) :=
  (Fintype.sum_equiv finProdFinEquiv (fun p : Fin a × Fin b => f (pos p.1 p.2)) f (fun _ => rfl)).symm.trans
    (Fintype.sum_prod_type _)

end Cert.LibBlockSum
-- ==== Proof.Spec.lean ====
/-
  The feed-forward layer as ONE function on the extended reals, row by row.

  For a row `x` of 2048 inputs, each of the two branches (gate and up) computes, per intermediate coordinate `f`,
  the pre-activation

      base(f) + 2 · lora(f),   base(f) = ∑ d, x d · W d f + b f,
                               lora(f) = ∑ k, (∑ d, x d · Wdn d k + bdn k) · Wup k f + bup f,

  a dense layer plus twice a rank-16 correction. The gate's pre-activation `z` goes through
  `era z = gelu z + 0.1 · softplus z`, with the tanh form of gelu and the stable form
  `max z 0 + log1p (exp (−|z|))` of softplus; the product of the gate and the up pre-activation is
  contracted with the down projection over all 8192 intermediate coordinates, and the output bias is added.

  The contraction over the 8192 intermediate coordinates may be taken tile by tile, 16 tiles of 512: a sum
  over `16 · 512` positions is the sum over the tiles of the sums inside each tile, and the running sum after
  tile `n` is the running sum after tile `n − 1` plus tile `n`'s sum. Only commutativity and associativity of
  addition are used, so nothing here asks the entries to be finite.
-/
import Mathlib
import Idealize.ShloMosaic.PureOps.Ideal
import Idealize.ShloMosaic.Lib.ValueIdx
import Idealize.ShloMosaic.PureOps.Ideal.Laws
import proofs.«132938_j19413252178269_1_alg».proof.Proof.LibBlockSum

noncomputable section

namespace Cert.Spec

open Idealize.ShloMosaic

/-- A 32-bit float word read as an extended real. -/
abbrev W (b : BitVec 32) : EReal := Ideal.ofBits .f32 b

/-- The weights and biases of the layer, as functions of coordinates. -/
structure Params where
  Wg : Fin 2048 → Fin 8192 → EReal
  bg : Fin 8192 → EReal
  Wgd : Fin 2048 → Fin 16 → EReal
  bgd : Fin 16 → EReal
  Wgu : Fin 16 → Fin 8192 → EReal
  bgu : Fin 8192 → EReal
  Wu : Fin 2048 → Fin 8192 → EReal
  bu : Fin 8192 → EReal
  Wud : Fin 2048 → Fin 16 → EReal
  bud : Fin 16 → EReal
  Wuu : Fin 16 → Fin 8192 → EReal
  buu : Fin 8192 → EReal
  Wd : Fin 8192 → Fin 2048 → EReal
  bd : Fin 2048 → EReal

/-- One branch's pre-activation at one intermediate coordinate: the dense layer `∑ x·W + b` plus `2` times the
    rank-16 correction `∑ k, (∑ x·Wdn + bdn) k · Wup k + bup`. -/
def pre (x : Fin 2048 → EReal) (Wcol : Fin 2048 → EReal) (b : EReal) (Wdn : Fin 2048 → Fin 16 → EReal)
    (bdn : Fin 16 → EReal) (Wupcol : Fin 16 → EReal) (bup : EReal) : EReal :=
  ((∑ d : Fin 2048, x d * Wcol d) + b)
    + W 0x40000000#32 * ((∑ k : Fin 16, ((∑ d : Fin 2048, x d * Wdn d k) + bdn k) * Wupcol k) + bup)

/-- The tanh form of gelu, `z · (½ · (1 + tanh (c · (z + a · z³))))`, the constants as their float words. -/
def gelu (z : EReal) : EReal :=
  z * (W 0x3F000000#32 * (W 0x3F800000#32 + Ideal.tanh (W 0x3F4C422A#32 * (z + W 0x3D372713#32 * (z * (z * z))))))

/-- The stable form of softplus, `max z 0 + log1p (exp (−|z|))`. -/
def softplus (z : EReal) : EReal := max z 0 + Ideal.log1p (Ideal.exp (-(max z (-z))))

/-- The gate's activation: `gelu z + 0.1 · softplus z`. -/
def era (z : EReal) : EReal := gelu z + W 0x3DCCCCCD#32 * softplus z

/-- The gate's pre-activation of row `x` at intermediate coordinate `f`. -/
def gatePre (P : Params) (x : Fin 2048 → EReal) (f : Fin 8192) : EReal :=
  pre x (fun d => P.Wg d f) (P.bg f) P.Wgd P.bgd (fun k => P.Wgu k f) (P.bgu f)

/-- The up branch's pre-activation of row `x` at intermediate coordinate `f`. -/
def upPre (P : Params) (x : Fin 2048 → EReal) (f : Fin 8192) : EReal :=
  pre x (fun d => P.Wu d f) (P.bu f) P.Wud P.bud (fun k => P.Wuu k f) (P.buu f)

/-- What intermediate coordinate `f` contributes to output coordinate `o` of row `x`. -/
def term (P : Params) (x : Fin 2048 → EReal) (f : Fin 8192) (o : Fin 2048) : EReal :=
  (era (gatePre P x f) * upPre P x f) * P.Wd f o

/-- The layer: output coordinate `o` of row `x`. -/
def out (P : Params) (x : Fin 2048 → EReal) (o : Fin 2048) : EReal :=
  (∑ f : Fin 8192, term P x f o) + P.bd o

/-- Tile `n`'s share of the contraction (zero past the sixteenth tile): the sum over the tile's 512 coordinates. -/
def tile (P : Params) (x : Fin 2048 → EReal) (o : Fin 2048) (n : ℕ) : EReal :=
  if h : n < 16 then ∑ j : Fin 512, term P x (Cert.LibBlockSum.pos (⟨n, h⟩ : Fin 16) j) o else 0

/-- The running sum after tile `n`. -/
def running (P : Params) (x : Fin 2048 → EReal) (o : Fin 2048) (n : ℕ) : EReal :=
  ∑ k ∈ Finset.range (n + 1), tile P x o k

theorem running_zero (P : Params) (x : Fin 2048 → EReal) (o : Fin 2048) :
    running P x o 0 = tile P x o 0 := by
  unfold running; rw [Finset.sum_range_one]

theorem running_succ (P : Params) (x : Fin 2048 → EReal) (o : Fin 2048) (n : ℕ) :
    running P x o (n + 1) = running P x o n + tile P x o (n + 1) := by
  unfold running; rw [Finset.sum_range_succ]

/-- After the sixteenth tile the running sum is the whole contraction. -/
theorem running_last (P : Params) (x : Fin 2048 → EReal) (o : Fin 2048) :
    running P x o 15 = ∑ f : Fin 8192, term P x f o := by
  unfold running
  rw [show (∑ f : Fin 8192, term P x f o) = ∑ k : Fin 16, ∑ j : Fin 512, term P x (Cert.LibBlockSum.pos k j) o from
    Cert.LibBlockSum.sum_blocks (a := 16) (b := 512) (fun f => term P x f o)]
  rw [Fin.sum_univ_eq_sum_range (fun k => tile P x o k) 16 |>.symm]
  refine Finset.sum_congr rfl fun k _ => ?_
  unfold tile
  rw [dif_pos k.isLt]

/-- So the layer's output is the running sum after the last tile plus the bias. -/
theorem out_eq_running (P : Params) (x : Fin 2048 → EReal) (o : Fin 2048) :
    out P x o = running P x o 15 + P.bd o := by
  unfold out; rw [running_last]

/-! ## The two printed spellings of the activation -/

/-- The cube `z · (z · z)` is `(z · z) · z`. -/
theorem cube_comm (z : EReal) : z * z * z = z * (z * z) := mul_comm _ _

/-- softplus as a kernel prints it: the guard `d ≠ d` of `d = z − 0` never fires, `0 − |d|` is `−|d|`. -/
theorem softplus_kernel (z : EReal) :
    Scalar.select (Ideal.cmp .one (z - W 0x00000000#32) (z - W 0x00000000#32)) (z + W 0x00000000#32)
      (max z (W 0x00000000#32)
        + Ideal.log1p (Ideal.exp (W 0x00000000#32 - max (z - W 0x00000000#32) (-(z - W 0x00000000#32)))))
      = softplus z := by
  have hc : Ideal.cmp .one (z - W 0x00000000#32) (z - W 0x00000000#32) = 0#1 := by simp [Ideal.cmp]
  rw [hc, ValueIdx.select_zero]
  unfold softplus W
  rw [Ideal.ofBits_zero_f32, sub_zero, zero_sub]

/-- softplus as the host prints it: the same with `−|d|` a negation and the guard the unordered comparison. -/
theorem softplus_host (z : EReal) :
    Scalar.select (Ideal.cmp .une (z - W 0x00000000#32) (z - W 0x00000000#32)) (z + W 0x00000000#32)
      (max z (W 0x00000000#32)
        + Ideal.log1p (Ideal.exp (-(max (z - W 0x00000000#32) (-(z - W 0x00000000#32))))))
      = softplus z := by
  have hc : Ideal.cmp .une (z - W 0x00000000#32) (z - W 0x00000000#32) = 0#1 := by simp [Ideal.cmp]
  rw [hc, ValueIdx.select_zero]
  unfold softplus W
  rw [Ideal.ofBits_zero_f32, sub_zero]

end Cert.Spec

end
-- ==== Proof.Arrays.lean ====
/-
  The layer over the argument ARRAYS: the weights and biases read out of the fifteen argument arrays by their
  coordinates, and the result array `[4, 2048, 2048]` whose entry `(b, s, o)` is the layer's output coordinate `o` for
  row `(b, s)` of the input. The same with the two leading axes flattened: row `p = 2048·b + s` of the `[8192, 2048]` input.
-/
import proofs.«132938_j19413252178269_1_alg».proof.Proof.Spec

noncomputable section

namespace Cert.Arrays

open Idealize.ShloMosaic Idealize.ShloMosaic.ValueIdx

/-- The weights and biases as the argument arrays hold them (argument 0 is the input). -/
def paramsOf (a1 : (⟨2, ![2048, 8192]⟩ : Shape).Idx → EReal) (a2 : (⟨1, ![8192]⟩ : Shape).Idx → EReal) (a3 : (⟨2, ![2048, 16]⟩ : Shape).Idx → EReal)
    (a4 : (⟨1, ![16]⟩ : Shape).Idx → EReal) (a5 : (⟨2, ![16, 8192]⟩ : Shape).Idx → EReal) (a6 : (⟨1, ![8192]⟩ : Shape).Idx → EReal)
    (a7 : (⟨2, ![2048, 8192]⟩ : Shape).Idx → EReal) (a8 : (⟨1, ![8192]⟩ : Shape).Idx → EReal) (a9 : (⟨2, ![2048, 16]⟩ : Shape).Idx → EReal)
    (a10 : (⟨1, ![16]⟩ : Shape).Idx → EReal) (a11 : (⟨2, ![16, 8192]⟩ : Shape).Idx → EReal) (a12 : (⟨1, ![8192]⟩ : Shape).Idx → EReal)
    (a13 : (⟨2, ![8192, 2048]⟩ : Shape).Idx → EReal) (a14 : (⟨1, ![2048]⟩ : Shape).Idx → EReal) : Spec.Params where
  Wg d f := a1 (ix2 d f)
  bg f := a2 (ix1 f)
  Wgd d k := a3 (ix2 d k)
  bgd k := a4 (ix1 k)
  Wgu k f := a5 (ix2 k f)
  bgu f := a6 (ix1 f)
  Wu d f := a7 (ix2 d f)
  bu f := a8 (ix1 f)
  Wud d k := a9 (ix2 d k)
  bud k := a10 (ix1 k)
  Wuu k f := a11 (ix2 k f)
  buu f := a12 (ix1 f)
  Wd f o := a13 (ix2 f o)
  bd o := a14 (ix1 o)

/-- The result array: entry `(b, s, o)` is the layer's output `o` for row `(b, s)` of the input. -/
def G (a0 : (⟨3, ![4, 2048, 2048]⟩ : Shape).Idx → EReal) (a1 : (⟨2, ![2048, 8192]⟩ : Shape).Idx → EReal) (a2 : (⟨1, ![8192]⟩ : Shape).Idx → EReal) (a3 : (⟨2, ![2048, 16]⟩ : Shape).Idx → EReal) (a4 : (⟨1, ![16]⟩ : Shape).Idx → EReal) (a5 : (⟨2, ![16, 8192]⟩ : Shape).Idx → EReal) (a6 : (⟨1, ![8192]⟩ : Shape).Idx → EReal) (a7 : (⟨2, ![2048, 8192]⟩ : Shape).Idx → EReal) (a8 : (⟨1, ![8192]⟩ : Shape).Idx → EReal) (a9 : (⟨2, ![2048, 16]⟩ : Shape).Idx → EReal) (a10 : (⟨1, ![16]⟩ : Shape).Idx → EReal) (a11 : (⟨2, ![16, 8192]⟩ : Shape).Idx → EReal) (a12 : (⟨1, ![8192]⟩ : Shape).Idx → EReal) (a13 : (⟨2, ![8192, 2048]⟩ : Shape).Idx → EReal) (a14 : (⟨1, ![2048]⟩ : Shape).Idx → EReal) : (⟨3, ![4, 2048, 2048]⟩ : Shape).Idx → EReal :=
  fun i => Spec.out (paramsOf a1 a2 a3 a4 a5 a6 a7 a8 a9 a10 a11 a12 a13 a14) (fun d => a0 (ix3 (i 0) (i 1) d)) (i 2)

end Cert.Arrays

end
-- ==== Proof.RefSide.lean ====
/-
  The reference program is the layer.

  Read one operation at a time at the index `(b, s, ·)`: each branch's pre-activation is a dense layer of row `(b, s)` of the
  input plus twice its rank-16 correction; the gate's goes through gelu (the cube written `(z·z)·z`) and the host's
  softplus, whose `z ≠ z` guard never fires on the extended reals; the product with the up branch is contracted with the
  down projection over the 8192 intermediate coordinates and the bias row is added.
-/
import proofs.«132938_j19413252178269_1_alg».proof.Proof.Gen.ReferenceIdeal.Read
import proofs.«132938_j19413252178269_1_alg».proof.Proof.Arrays

noncomputable section

namespace Cert.RefSide

open Cert.ReferenceIdeal Cert.ReferenceIdeal.Gen Cert.ReferenceIdeal.Read Idealize.ShloMosaic Idealize.ShloMosaic.ValueIdx

local macro "idx1" : tactic => `(tactic| (funext a; exact Fin.ext (by match a with | ⟨0, _⟩ => rfl)))
local macro "idx2" : tactic => `(tactic| (funext a; exact Fin.ext (by match a with | ⟨0, _⟩ => rfl | ⟨1, _⟩ => rfl)))
local macro "idx3" : tactic => `(tactic| (funext a; exact Fin.ext (by match a with | ⟨0, _⟩ => rfl | ⟨1, _⟩ => rfl | ⟨2, _⟩ => rfl)))

/-- The gate branch's pre-activation, read at `(b, s, f)`: the dense layer of row `(b, s)` plus twice its rank-16 correction. -/
theorem gate_pre (x0 : (⟨S4x2048x2048, .f32⟩ : BufTy).Contents (Elt Ideal)) (x1 : (⟨S2048x8192, .f32⟩ : BufTy).Contents (Elt Ideal)) (x2 : (⟨S8192, .f32⟩ : BufTy).Contents (Elt Ideal)) (x3 : (⟨S2048x16, .f32⟩ : BufTy).Contents (Elt Ideal))
    (x4 : (⟨S16, .f32⟩ : BufTy).Contents (Elt Ideal)) (x5 : (⟨S16x8192, .f32⟩ : BufTy).Contents (Elt Ideal)) (x6 : (⟨S8192, .f32⟩ : BufTy).Contents (Elt Ideal)) (b : Fin 4) (s : Fin 2048) (f : Fin 8192) :
    val_main_v14 (F := Ideal) x0 x1 x2 x3 x4 x5 x6 (ix3 b s f)
      = Spec.pre (fun d => x0 (ix3 b s d)) (fun d => x1 (ix2 d f)) (x2 (ix1 f)) (fun d k => x3 (ix2 d k))
          (fun k => x4 (ix1 k)) (fun k => x5 (ix2 k f)) (x6 (ix1 f)) := by
  rw [val_main_v14_apply, val_main_v3_apply, val_main_v13_apply, val_main_v11_apply, val_main_v0_apply,
    val_main_v2_apply, val_main_v1_apply, val_main_v12_apply, val_main_cst_apply, val_main_v8_apply,
    val_main_v10_apply, val_main_v9_apply]
  simp only [val_main_v7_apply, val_main_v4_apply, val_main_v6_apply, val_main_v5_apply]
  have e0l : ∀ k, lidx_main_v0 (ix3 b s f) k = ix3 b s k := fun k => by idx3
  have e0r : ∀ k, ridx_main_v0 (ix3 b s f) k = ix2 k f := fun k => by idx2
  have e1 : idx_main_v1 (idx_main_v2 (ix3 b s f)) = ix1 f := by idx1
  have e8r : ∀ k, ridx_main_v8 (ix3 b s f) k = ix2 k f := fun k => by idx2
  have e4l : ∀ k d, lidx_main_v4 (lidx_main_v8 (ix3 b s f) k) d = ix3 b s d := fun k d => by idx3
  have e4r : ∀ k d, ridx_main_v4 (lidx_main_v8 (ix3 b s f) k) d = ix2 d k := fun k d => by idx2
  have e5 : ∀ k, idx_main_v5 (idx_main_v6 (lidx_main_v8 (ix3 b s f) k)) = ix1 k := fun k => by idx1
  have e9 : idx_main_v9 (idx_main_v10 (ix3 b s f)) = ix1 f := by idx1
  simp only [e0l, e0r, e1, e8r, e4l, e4r, e5, e9, Ideal.addf_def, Ideal.mulf_def, Ideal.ofBits_def]
  rfl

/-- The up branch's pre-activation, read at `(b, s, f)`: the dense layer of row `(b, s)` plus twice its rank-16 correction. -/
theorem up_pre (x0 : (⟨S4x2048x2048, .f32⟩ : BufTy).Contents (Elt Ideal)) (x7 : (⟨S2048x8192, .f32⟩ : BufTy).Contents (Elt Ideal)) (x8 : (⟨S8192, .f32⟩ : BufTy).Contents (Elt Ideal)) (x9 : (⟨S2048x16, .f32⟩ : BufTy).Contents (Elt Ideal))
    (x10 : (⟨S16, .f32⟩ : BufTy).Contents (Elt Ideal)) (x11 : (⟨S16x8192, .f32⟩ : BufTy).Contents (Elt Ideal)) (x12 : (⟨S8192, .f32⟩ : BufTy).Contents (Elt Ideal)) (b : Fin 4) (s : Fin 2048) (f : Fin 8192) :
    val_main_v46 (F := Ideal) x0 x7 x8 x9 x10 x11 x12 (ix3 b s f)
      = Spec.pre (fun d => x0 (ix3 b s d)) (fun d => x7 (ix2 d f)) (x8 (ix1 f)) (fun d k => x9 (ix2 d k))
          (fun k => x10 (ix1 k)) (fun k => x11 (ix2 k f)) (x12 (ix1 f)) := by
  rw [val_main_v46_apply, val_main_v35_apply, val_main_v45_apply, val_main_v43_apply, val_main_v32_apply,
    val_main_v34_apply, val_main_v33_apply, val_main_v44_apply, val_main_cst_5_apply, val_main_v40_apply,
    val_main_v42_apply, val_main_v41_apply]
  simp only [val_main_v39_apply, val_main_v36_apply, val_main_v38_apply, val_main_v37_apply]
  have e0l : ∀ k, lidx_main_v32 (ix3 b s f) k = ix3 b s k := fun k => by idx3
  have e0r : ∀ k, ridx_main_v32 (ix3 b s f) k = ix2 k f := fun k => by idx2
  have e1 : idx_main_v33 (idx_main_v34 (ix3 b s f)) = ix1 f := by idx1
  have e8r : ∀ k, ridx_main_v40 (ix3 b s f) k = ix2 k f := fun k => by idx2
  have e4l : ∀ k d, lidx_main_v36 (lidx_main_v40 (ix3 b s f) k) d = ix3 b s d := fun k d => by idx3
  have e4r : ∀ k d, ridx_main_v36 (lidx_main_v40 (ix3 b s f) k) d = ix2 d k := fun k d => by idx2
  have e5 : ∀ k, idx_main_v37 (idx_main_v38 (lidx_main_v40 (ix3 b s f) k)) = ix1 k := fun k => by idx1
  have e9 : idx_main_v41 (idx_main_v42 (ix3 b s f)) = ix1 f := by idx1
  simp only [e0l, e0r, e1, e8r, e4l, e4r, e5, e9, Ideal.addf_def, Ideal.mulf_def, Ideal.ofBits_def]
  rfl

/-- The gate's activation at any index: gelu plus a tenth of softplus of the pre-activation there. -/
theorem gate_act (x0 : (⟨S4x2048x2048, .f32⟩ : BufTy).Contents (Elt Ideal)) (x1 : (⟨S2048x8192, .f32⟩ : BufTy).Contents (Elt Ideal)) (x2 : (⟨S8192, .f32⟩ : BufTy).Contents (Elt Ideal)) (x3 : (⟨S2048x16, .f32⟩ : BufTy).Contents (Elt Ideal))
    (x4 : (⟨S16, .f32⟩ : BufTy).Contents (Elt Ideal)) (x5 : (⟨S16x8192, .f32⟩ : BufTy).Contents (Elt Ideal)) (x6 : (⟨S8192, .f32⟩ : BufTy).Contents (Elt Ideal)) (i : S4x2048x8192.Idx) :
    val_main_v31 (F := Ideal) x0 x1 x2 x3 x4 x5 x6 i = Spec.era (val_main_v14 (F := Ideal) x0 x1 x2 x3 x4 x5 x6 i) := by
  simp only [val_main_v31_apply, val_main_v27_apply, val_main_v30_apply, val_main_v29_apply, val_main_cst_4_apply, val_main_v28_apply, val_main_call0_v4_apply, val_main_call0_v6_apply, val_main_call0_v11_apply, val_main_call0_v1_apply, val_main_call0_v10_apply, val_main_call0_v9_apply, val_main_call0_v8_apply, val_main_call0_v7_apply, val_main_call0_v3_apply, val_main_call0_v2_apply, val_main_call0_v5_apply, val_main_call0_v0_apply, val_main_call0_cst_apply, val_main_v26_apply, val_main_v25_apply, val_main_cst_3_apply, val_main_v24_apply, val_main_v23_apply, val_main_cst_2_apply, val_main_v22_apply, val_main_v21_apply, val_main_v20_apply, val_main_cst_1_apply, val_main_v19_apply, val_main_v18_apply, val_main_v17_apply, val_main_cst_0_apply, val_main_v16_apply, val_main_v15_apply]
  generalize val_main_v14 (F := Ideal) x0 x1 x2 x3 x4 x5 x6 i = z
  simp only [Ideal.addf_def, Ideal.mulf_def, Ideal.subf_def, Ideal.maximumf_def, Ideal.ofBits_def, Ideal.hostUnary_tanh_def,
    Ideal.hostUnary_exp_def, Ideal.hostUnary_log1p_def, Ideal.hostNegf_def, Ideal.hostAbsf_def, Ideal.negf_def]
  rw [Spec.era, Spec.gelu, ← Spec.softplus_host z, Spec.cube_comm]
  rfl

/-- The reference's result array is the layer over the argument arrays. -/
theorem ref_eq (x0 : (⟨S4x2048x2048, .f32⟩ : BufTy).Contents (Elt Ideal)) (x1 : (⟨S2048x8192, .f32⟩ : BufTy).Contents (Elt Ideal)) (x2 : (⟨S8192, .f32⟩ : BufTy).Contents (Elt Ideal)) (x3 : (⟨S2048x16, .f32⟩ : BufTy).Contents (Elt Ideal))
    (x4 : (⟨S16, .f32⟩ : BufTy).Contents (Elt Ideal)) (x5 : (⟨S16x8192, .f32⟩ : BufTy).Contents (Elt Ideal)) (x6 : (⟨S8192, .f32⟩ : BufTy).Contents (Elt Ideal)) (x7 : (⟨S2048x8192, .f32⟩ : BufTy).Contents (Elt Ideal)) (x8 : (⟨S8192, .f32⟩ : BufTy).Contents (Elt Ideal)) (x9 : (⟨S2048x16, .f32⟩ : BufTy).Contents (Elt Ideal))
    (x10 : (⟨S16, .f32⟩ : BufTy).Contents (Elt Ideal)) (x11 : (⟨S16x8192, .f32⟩ : BufTy).Contents (Elt Ideal)) (x12 : (⟨S8192, .f32⟩ : BufTy).Contents (Elt Ideal)) (x13 : (⟨S8192x2048, .f32⟩ : BufTy).Contents (Elt Ideal)) (x14 : (⟨S2048, .f32⟩ : BufTy).Contents (Elt Ideal)) :
    val_main_v51 (F := Ideal) x0 x1 x2 x3 x4 x5 x6 x7 x8 x9 x10 x11 x12 x13 x14
      = Cert.Arrays.G x0 x1 x2 x3 x4 x5 x6 x7 x8 x9 x10 x11 x12 x13 x14 := by
  funext i
  obtain ⟨b, s, o, rfl⟩ : ∃ (b : Fin 4) (s : Fin 2048) (o : Fin 2048), i = ix3 b s o := ⟨i 0, i 1, i 2, eq_ix3 i⟩
  rw [val_main_v51_apply, val_main_v48_apply, val_main_v50_apply, val_main_v49_apply]
  simp only [val_main_v47_apply]
  have el : ∀ k, lidx_main_v48 (ix3 b s o) k = ix3 b s k := fun k => by idx3
  have er : ∀ k, ridx_main_v48 (ix3 b s o) k = ix2 k o := fun k => by idx2
  have eb : idx_main_v49 (idx_main_v50 (ix3 b s o)) = ix1 o := by idx1
  simp only [el, er, eb, gate_act, gate_pre, up_pre, Ideal.addf_def, Ideal.mulf_def]
  rfl

end Cert.RefSide

end
-- ==== Proof.KPieces.lean ====
/-
  What each case of the body leaves in the accumulator and in the output block, as values.

  The grid's second axis walks the 16 tiles of the intermediate axis. At a row block's first tile the body stores a
  zero block into the accumulator, reads it back and stores the update of it; at every other tile it stores the update
  of the accumulator it finds; at the last tile it also reads the updated accumulator back and stores it, plus the
  output bias row, into the output block. Each store covers its whole buffer, so what a buffer ends holding is the
  last store's value, and every load reads a whole buffer, so the value is a term of the blocks the body was handed:
  `upd`, the update of the accumulator, and for the output block `upd` plus the bias row.
-/
import proofs.«132938_j19413252178269_1_alg».proof.Proof.Gen.KernelIdeal.Frame
import Idealize.ShloMosaic.Lib.Pipeline.Value
import Idealize.ShloMosaic.Lib.Tactic

noncomputable section

namespace Cert.KPieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- The accumulator after the body, as one term of the blocks the body loads and the accumulator it finds. -/
abbrev upd (x0 : Vec F S512x2048 .bf16) (x1 : Vec F S2048x512 .bf16) (x2 : Vec F S1x512 .f32) (x3 : Vec F S2048x16 .bf16) (x4 : Vec F S1x16 .f32) (x5 : Vec F S16x512 .bf16) (x6 : Vec F S1x512 .f32) (x7 : Vec F S2048x512 .bf16) (x8 : Vec F S1x512 .f32) (x9 : Vec F S2048x16 .bf16) (x10 : Vec F S1x16 .f32) (x11 : Vec F S16x512 .bf16) (x12 : Vec F S1x512 .f32) (x13 : Vec F S512x2048 .bf16) (xs : Vec F S512x2048 .f32) : FVec F S512x2048 .f32 :=
  k0_pay1 (F := F)
    (k0_pay7 (k0_pay5 x0 x1 x2 x3 x4 x5 x6) (k0_pay6 x0 x1 x2 x3 x4 x5 x6) (Scalar.ofBits .f32 0x3F4C422A#32))
    (k0_pay8 (k0_pay4 x0) x7 x8) (k0_pay9 (k0_pay4 x0) x9 x10) (k0_pay10 x11)
    (constant S512x512 .f32 0x00000000#32) x12 xs x13

theorem sout_B (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S2048x16 .bf16) (harg5 : arg5.IsWhole) (arg6 : Memref sig .tc .vmem S1x16 .f32) (harg6 : arg6.IsWhole) (arg7 : Memref sig .tc .vmem S16x512 .bf16) (harg7 : arg7.IsWhole) (arg8 : Memref sig .tc .vmem S1x512 .f32) (harg8 : arg8.IsWhole) (arg9 : Memref sig .tc .vmem S2048x512 .bf16) (harg9 : arg9.IsWhole) (arg10 : Memref sig .tc .vmem S1x512 .f32) (harg10 : arg10.IsWhole) (arg11 : Memref sig .tc .vmem S2048x16 .bf16) (harg11 : arg11.IsWhole) (arg12 : Memref sig .tc .vmem S1x16 .f32) (harg12 : arg12.IsWhole) (arg13 : Memref sig .tc .vmem S16x512 .bf16) (harg13 : arg13.IsWhole) (arg14 : Memref sig .tc .vmem S1x512 .f32) (harg14 : arg14.IsWhole) (arg15 : Memref sig .tc .vmem S512x2048 .bf16) (harg15 : arg15.IsWhole) (arg16 : Memref sig .tc .vmem S1x2048 .f32) (harg16 : arg16.IsWhole) (arg17 : Memref sig .tc .vmem S512x2048 .f32) (harg17 : arg17.IsWhole) (arg18 : Memref sig .tc .vmem S512x2048 .f32) (harg18 : arg18.IsWhole) (hc0 : ¬cond0_0 i) (hc1 : ¬cond0_1 i)
    (x0 : Vec F S512x2048 .bf16) (x1 : Vec F S2048x512 .bf16) (x2 : Vec F S1x512 .f32) (x3 : Vec F S2048x16 .bf16) (x4 : Vec F S1x16 .f32) (x5 : Vec F S16x512 .bf16) (x6 : Vec F S1x512 .f32) (x7 : Vec F S2048x512 .bf16) (x8 : Vec F S1x512 .f32) (x9 : Vec F S2048x16 .bf16) (x10 : Vec F S1x16 .f32) (x11 : Vec F S16x512 .bf16) (x12 : Vec F S1x512 .f32) (x13 : Vec F S512x2048 .bf16) (x14 : Vec F S1x2048 .f32) (xs0 : Vec F S512x2048 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0 = upd x0 x1 x2 x3 x4 x5 x6 x7 x8 x9 x10 x11 x12 x13 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg18.read_unread, View.ld_unit_zero (S := S512x2048) hz, View.ld_unit_zero (S := S2048x512) hz, View.ld_unit_zero (S := S1x512) hz, View.ld_unit_zero (S := S2048x16) hz, View.ld_unit_zero (S := S1x16) hz, View.ld_unit_zero (S := S16x512) hz, View.ld_unit_zero (S := S1x2048) hz]

theorem sout_A (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S2048x16 .bf16) (harg5 : arg5.IsWhole) (arg6 : Memref sig .tc .vmem S1x16 .f32) (harg6 : arg6.IsWhole) (arg7 : Memref sig .tc .vmem S16x512 .bf16) (harg7 : arg7.IsWhole) (arg8 : Memref sig .tc .vmem S1x512 .f32) (harg8 : arg8.IsWhole) (arg9 : Memref sig .tc .vmem S2048x512 .bf16) (harg9 : arg9.IsWhole) (arg10 : Memref sig .tc .vmem S1x512 .f32) (harg10 : arg10.IsWhole) (arg11 : Memref sig .tc .vmem S2048x16 .bf16) (harg11 : arg11.IsWhole) (arg12 : Memref sig .tc .vmem S1x16 .f32) (harg12 : arg12.IsWhole) (arg13 : Memref sig .tc .vmem S16x512 .bf16) (harg13 : arg13.IsWhole) (arg14 : Memref sig .tc .vmem S1x512 .f32) (harg14 : arg14.IsWhole) (arg15 : Memref sig .tc .vmem S512x2048 .bf16) (harg15 : arg15.IsWhole) (arg16 : Memref sig .tc .vmem S1x2048 .f32) (harg16 : arg16.IsWhole) (arg17 : Memref sig .tc .vmem S512x2048 .f32) (harg17 : arg17.IsWhole) (arg18 : Memref sig .tc .vmem S512x2048 .f32) (harg18 : arg18.IsWhole) (hc0 : cond0_0 i) (hc1 : ¬cond0_1 i)
    (x0 : Vec F S512x2048 .bf16) (x1 : Vec F S2048x512 .bf16) (x2 : Vec F S1x512 .f32) (x3 : Vec F S2048x16 .bf16) (x4 : Vec F S1x16 .f32) (x5 : Vec F S16x512 .bf16) (x6 : Vec F S1x512 .f32) (x7 : Vec F S2048x512 .bf16) (x8 : Vec F S1x512 .f32) (x9 : Vec F S2048x16 .bf16) (x10 : Vec F S1x16 .f32) (x11 : Vec F S16x512 .bf16) (x12 : Vec F S1x512 .f32) (x13 : Vec F S512x2048 .bf16) (x14 : Vec F S1x2048 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 = upd x0 x1 x2 x3 x4 x5 x6 x7 x8 x9 x10 x11 x12 x13 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14)]
  unfold kernelRun0_A
  dsimp only
  sl_unfold_words
  rw [View.canon_cons_unit_zero (S := S512x2048) hz, View.readCov_unit_zero (S := S512x2048) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg18.read_unread, View.ld_unit_zero (S := S512x2048) hz, View.ld_unit_zero (S := S2048x512) hz, View.ld_unit_zero (S := S1x512) hz, View.ld_unit_zero (S := S2048x16) hz, View.ld_unit_zero (S := S1x16) hz, View.ld_unit_zero (S := S16x512) hz, View.ld_unit_zero (S := S1x2048) hz]

theorem out_C (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S2048x16 .bf16) (harg5 : arg5.IsWhole) (arg6 : Memref sig .tc .vmem S1x16 .f32) (harg6 : arg6.IsWhole) (arg7 : Memref sig .tc .vmem S16x512 .bf16) (harg7 : arg7.IsWhole) (arg8 : Memref sig .tc .vmem S1x512 .f32) (harg8 : arg8.IsWhole) (arg9 : Memref sig .tc .vmem S2048x512 .bf16) (harg9 : arg9.IsWhole) (arg10 : Memref sig .tc .vmem S1x512 .f32) (harg10 : arg10.IsWhole) (arg11 : Memref sig .tc .vmem S2048x16 .bf16) (harg11 : arg11.IsWhole) (arg12 : Memref sig .tc .vmem S1x16 .f32) (harg12 : arg12.IsWhole) (arg13 : Memref sig .tc .vmem S16x512 .bf16) (harg13 : arg13.IsWhole) (arg14 : Memref sig .tc .vmem S1x512 .f32) (harg14 : arg14.IsWhole) (arg15 : Memref sig .tc .vmem S512x2048 .bf16) (harg15 : arg15.IsWhole) (arg16 : Memref sig .tc .vmem S1x2048 .f32) (harg16 : arg16.IsWhole) (arg17 : Memref sig .tc .vmem S512x2048 .f32) (harg17 : arg17.IsWhole) (arg18 : Memref sig .tc .vmem S512x2048 .f32) (harg18 : arg18.IsWhole) (hc0 : ¬cond0_0 i) (hc1 : cond0_1 i)
    (x0 : Vec F S512x2048 .bf16) (x1 : Vec F S2048x512 .bf16) (x2 : Vec F S1x512 .f32) (x3 : Vec F S2048x16 .bf16) (x4 : Vec F S1x16 .f32) (x5 : Vec F S16x512 .bf16) (x6 : Vec F S1x512 .f32) (x7 : Vec F S2048x512 .bf16) (x8 : Vec F S1x512 .f32) (x9 : Vec F S2048x16 .bf16) (x10 : Vec F S1x16 .f32) (x11 : Vec F S16x512 .bf16) (x12 : Vec F S1x512 .f32) (x13 : Vec F S512x2048 .bf16) (x14 : Vec F S1x2048 .f32) (xs0 : Vec F S512x2048 .f32) :
    out0_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0 = k0_pay2 (upd x0 x1 x2 x3 x4 x5 x6 x7 x8 x9 x10 x11 x12 x13 xs0) x14 := by
  unfold out0_C_15
  rw [View.read_writes_eq_canon _ _ _ (cover0_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0)]
  unfold kernelRun0_C
  dsimp only
  sl_unfold_words
  rw [View.canon_unit_zero hz, View.readCov_unit_zero (S := S512x2048) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg18.read_unread, View.ld_unit_zero (S := S512x2048) hz, View.ld_unit_zero (S := S2048x512) hz, View.ld_unit_zero (S := S1x512) hz, View.ld_unit_zero (S := S2048x16) hz, View.ld_unit_zero (S := S1x16) hz, View.ld_unit_zero (S := S16x512) hz, View.ld_unit_zero (S := S1x2048) hz]

theorem sout_C (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S2048x16 .bf16) (harg5 : arg5.IsWhole) (arg6 : Memref sig .tc .vmem S1x16 .f32) (harg6 : arg6.IsWhole) (arg7 : Memref sig .tc .vmem S16x512 .bf16) (harg7 : arg7.IsWhole) (arg8 : Memref sig .tc .vmem S1x512 .f32) (harg8 : arg8.IsWhole) (arg9 : Memref sig .tc .vmem S2048x512 .bf16) (harg9 : arg9.IsWhole) (arg10 : Memref sig .tc .vmem S1x512 .f32) (harg10 : arg10.IsWhole) (arg11 : Memref sig .tc .vmem S2048x16 .bf16) (harg11 : arg11.IsWhole) (arg12 : Memref sig .tc .vmem S1x16 .f32) (harg12 : arg12.IsWhole) (arg13 : Memref sig .tc .vmem S16x512 .bf16) (harg13 : arg13.IsWhole) (arg14 : Memref sig .tc .vmem S1x512 .f32) (harg14 : arg14.IsWhole) (arg15 : Memref sig .tc .vmem S512x2048 .bf16) (harg15 : arg15.IsWhole) (arg16 : Memref sig .tc .vmem S1x2048 .f32) (harg16 : arg16.IsWhole) (arg17 : Memref sig .tc .vmem S512x2048 .f32) (harg17 : arg17.IsWhole) (arg18 : Memref sig .tc .vmem S512x2048 .f32) (harg18 : arg18.IsWhole) (hc0 : ¬cond0_0 i) (hc1 : cond0_1 i)
    (x0 : Vec F S512x2048 .bf16) (x1 : Vec F S2048x512 .bf16) (x2 : Vec F S1x512 .f32) (x3 : Vec F S2048x16 .bf16) (x4 : Vec F S1x16 .f32) (x5 : Vec F S16x512 .bf16) (x6 : Vec F S1x512 .f32) (x7 : Vec F S2048x512 .bf16) (x8 : Vec F S1x512 .f32) (x9 : Vec F S2048x16 .bf16) (x10 : Vec F S1x16 .f32) (x11 : Vec F S16x512 .bf16) (x12 : Vec F S1x512 .f32) (x13 : Vec F S512x2048 .bf16) (x14 : Vec F S1x2048 .f32) (xs0 : Vec F S512x2048 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0 = upd x0 x1 x2 x3 x4 x5 x6 x7 x8 x9 x10 x11 x12 x13 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg18.read_unread, View.ld_unit_zero (S := S512x2048) hz, View.ld_unit_zero (S := S2048x512) hz, View.ld_unit_zero (S := S1x512) hz, View.ld_unit_zero (S := S2048x16) hz, View.ld_unit_zero (S := S1x16) hz, View.ld_unit_zero (S := S16x512) hz, View.ld_unit_zero (S := S1x2048) hz]

end Cert.KPieces

end
-- ==== Proof.LibMatProduct.lean ====
/-
  A matrix product into a zero accumulator, read at an entry.

  For operands `[m, k]` and `[k, n]` contracted over the left operand's columns and the right operand's rows, entry
  `(r, c)` of the product is the sum over the contracted coordinate `h` of `lhs (r, h) · rhs (h, c)`: the contraction's
  one-axis index set is re-indexed by its coordinate.
-/
import Idealize.ShloMosaic.Lib.ValueIdx
import Idealize.ShloMosaic.PureOps.Ideal.Laws

noncomputable section

namespace Cert.LibMatProduct

open Idealize.ShloMosaic Idealize.ShloMosaic.ValueIdx

/-- The float words of `1`, `510` at the ideal values. -/
theorem one_word : Ideal.ofBits .f32 0x3F800000#32 = (1 : EReal) := by
  simp [Ideal.ofBits, Ideal.ieee, -EReal.coe_mul]; norm_num

theorem w510 : Ideal.ofBits .f32 0x43FF0000#32 = ((510 : ℝ) : EReal) := by
  simp [Ideal.ofBits, Ideal.ieee, -EReal.coe_mul]; norm_num

/-- Entry `(r, c)` of `lhs · rhs` into a zero accumulator is `∑ h, lhs (r, h) · rhs (h, c)`. -/
theorem matmul_zero_apply {m k n : ℕ} {φ₁ φ₂ : FTy}
    (d : DotDims ⟨2, ![m, k]⟩ ⟨2, ![k, n]⟩ ⟨2, ![m, n]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![m, k]⟩ φ₁) (rhs : FVec Ideal ⟨2, ![k, n]⟩ φ₂) (r : Fin m) (c : Fin n) :
    FloatOps.matmul d prec lhs rhs (constant ⟨2, ![m, n]⟩ .f32 0x00000000#32) (ix2 r c)
      = ∑ h : Fin k, lhs (ix2 r h) * rhs (ix2 h c) := by
  rw [Ideal.matmul_constant_zero_apply]
  have hrk : d.contr.rank = 1 := by rw [d.rank_contr, hlc]; rfl
  have hs : d.contr.size ⟨0, by omega⟩ = k := by
    rw [d.size_contr 0 (by rw [hlc]; exact Nat.one_pos)]
    simp [hlc]
  rw [← Equiv.sum_comp (contrEquiv1 d k hrk hs).symm]
  refine Finset.sum_congr rfl fun h _ => ?_
  have hval : (((contrEquiv1 d k hrk hs).symm h) ⟨0, by omega⟩ : ℕ) = h.val := contrEquiv1_symm_val d k hrk hs h
  congr 1
  · refine congrArg lhs (funext fun a => Fin.ext ?_)
    match a with
    | ⟨0, _⟩ =>
      show (d.lhsIdx (ix2 r c) _ 0).val = r.val
      unfold DotDims.lhsIdx
      rw [dif_neg (by rw [hlb]; exact List.not_mem_nil), dif_pos (by rw [hln]; exact List.mem_singleton.mpr rfl)]
      simp only [Fin.val_cast]
      have key : ∀ (p : Nat) (hp : p < (⟨2, ![m, n]⟩ : Shape).rank), p = 0 → ((ix2 r c : (⟨2, ![m, n]⟩ : Shape).Idx) ⟨p, hp⟩).val = r.val :=
        fun p hp e => by subst e; rfl
      exact key _ _ (by simp [hlb, hln])
    | ⟨1, _⟩ =>
      show (d.lhsIdx (ix2 r c) _ 1).val = h.val
      rw [d.lhsIdx_val_of_single hlc]
      exact hval
  · refine congrArg rhs (funext fun a => Fin.ext ?_)
    match a with
    | ⟨0, _⟩ =>
      show (d.rhsIdx (ix2 r c) _ 0).val = h.val
      rw [d.rhsIdx_val_of_single hrc]
      exact hval
    | ⟨1, _⟩ =>
      show (d.rhsIdx (ix2 r c) _ 1).val = c.val
      unfold DotDims.rhsIdx
      rw [dif_neg (by rw [hrb]; exact List.not_mem_nil), dif_pos (by rw [hrn]; exact List.mem_singleton.mpr rfl)]
      simp only [Fin.val_cast]
      have key : ∀ (p : Nat) (hp : p < (⟨2, ![m, n]⟩ : Shape).rank), p = 1 → ((ix2 r c : (⟨2, ![m, n]⟩ : Shape).Idx) ⟨p, hp⟩).val = c.val :=
        fun p hp e => by subst e; rfl
      exact key _ _ (by simp [hlb, hln, hrn])

end Cert.LibMatProduct

end
-- ==== Proof.KPayload.lean ====
/-
  What one grid point's body computes, entry by entry, on the extended reals.

  The body holds a block of 512 input rows, one tile of 512 intermediate coordinates of every weight that has that axis,
  and the whole rank-16 factors. Per row `r` and tile coordinate `f` it forms the two pre-activations (a dense layer plus
  twice a rank-16 correction, each matrix product a plain sum over the contracted coordinate, each bias a row broadcast
  down the block), the gate's activation, and their product; it contracts that product over the tile's 512 coordinates
  with the tile's rows of the down projection and adds the result to the accumulator. So entry `(r, o)` of the new
  accumulator is the old entry plus the tile's share `∑ f, term (r, f, o)` of the layer's contraction.
-/
import proofs.«132938_j19413252178269_1_alg».proof.Proof.Gen.KernelIdeal.Skeleton
import proofs.«132938_j19413252178269_1_alg».proof.Proof.Spec
import proofs.«132938_j19413252178269_1_alg».proof.Proof.LibMatProduct
import Idealize.ShloMosaic.Lib.ValueLayout
import Idealize.ShloMosaic.Lib.Pipeline.Value

noncomputable section

namespace Cert.KPayload

open Cert.KernelIdeal Cert.KernelIdeal.Gen Idealize.ShloMosaic Idealize.ShloMosaic.ValueIdx

/-- Entry `(p, q)` of a matrix product `[n, k] · [k, o]` into a zero accumulator is `∑ h, X (p, h) · Wt (h, q)`. -/
theorem matmul_at {n k o : ℕ} {φ₁ φ₂ : FTy} (d : DotDims ⟨2, ![n, k]⟩ ⟨2, ![k, o]⟩ ⟨2, ![n, o]⟩)
    (hlc : d.lhsContracting = [1]) (hrc : d.rhsContracting = [0])
    (hln : d.lhsNonContracting = [0]) (hrn : d.rhsNonContracting = [1])
    (hlb : d.lhsBatch = []) (hrb : d.rhsBatch = [])
    (X : FVec Ideal ⟨2, ![n, k]⟩ φ₁) (Wt : FVec Ideal ⟨2, ![k, o]⟩ φ₂) (p : Fin n) (q : Fin o) :
    matmul d none X Wt (constant ⟨2, ![n, o]⟩ .f32 0x00000000#32) (ix2 p q) = ∑ h : Fin k, X (ix2 p h) * Wt (ix2 h q) :=
  Cert.LibMatProduct.matmul_zero_apply d none hlc hrc hln hrn hlb hrb X Wt p q

/-- A dense layer of blocks at `(p, q)`: the product into a zero accumulator plus the bias row broadcast down the rows. -/
theorem dense_at {n k o : ℕ} {φ₁ φ₂ : FTy} (d : DotDims ⟨2, ![n, k]⟩ ⟨2, ![k, o]⟩ ⟨2, ![n, o]⟩)
    (hlc : d.lhsContracting = [1]) (hrc : d.rhsContracting = [0])
    (hln : d.lhsNonContracting = [0]) (hrn : d.rhsNonContracting = [1])
    (hlb : d.lhsBatch = []) (hrb : d.rhsBatch = [])
    (X : FVec Ideal ⟨2, ![n, k]⟩ φ₁) (Wt : FVec Ideal ⟨2, ![k, o]⟩ φ₂) (b : FVec Ideal ⟨2, ![1, o]⟩ .f32)
    (hb : (⟨2, ![1, o]⟩ : Shape).Broadcasts ⟨2, ![n, o]⟩) (p : Fin n) (q : Fin o) :
    addf (matmul d none X Wt (constant ⟨2, ![n, o]⟩ .f32 0x00000000#32)) (broadcastTo ⟨2, ![n, o]⟩ b hb) (ix2 p q)
      = (∑ h : Fin k, X (ix2 p h) * Wt (ix2 h q)) + b (ix2 (0 : Fin 1) q) := by
  rw [addf_apply, matmul_at d hlc hrc hln hrn hlb hrb, broadcastTo_1b_ab_apply]

/-- One branch's pre-activation of the blocks at row `r`, tile coordinate `f`. -/
theorem pay5_at (x0 : Vec Ideal S512x2048 .bf16) (x1 : Vec Ideal S2048x512 .bf16) (x2 : Vec Ideal S1x512 .f32)
    (x3 : Vec Ideal S2048x16 .bf16) (x4 : Vec Ideal S1x16 .f32) (x5 : Vec Ideal S16x512 .bf16) (x6 : Vec Ideal S1x512 .f32)
    (r f : Fin 512) :
    k0_pay5 (F := Ideal) x0 x1 x2 x3 x4 x5 x6 (ix2 r f)
      = Spec.pre (fun d => x0 (ix2 r d)) (fun d => x1 (ix2 d f)) (x2 (ix2 (0 : Fin 1) f)) (fun d k => x3 (ix2 d k))
          (fun k => x4 (ix2 (0 : Fin 1) k)) (fun k => x5 (ix2 k f)) (x6 (ix2 (0 : Fin 1) f)) := by
  unfold k0_pay5 k0_pay4
  simp only [shapeCast_self]
  rw [addf_apply, dense_at dot_S512x2048_S2048x512_S512x512_1_0_0_1_n_n rfl rfl rfl rfl rfl rfl, mulf_apply, broadcast_apply, dense_at dot_S512x16_S16x512_S512x512_1_0_0_1_n_n rfl rfl rfl rfl rfl rfl]
  simp only [truncf_apply, dense_at dot_S512x2048_S2048x16_S512x16_1_0_0_1_n_n rfl rfl rfl rfl rfl rfl]
  rfl

/-- The up branch's dense layer of the blocks at `(r, f)`. -/
theorem pay8_at (v4 : FVec Ideal S512x2048 .bf16) (x7 : Vec Ideal S2048x512 .bf16) (x8 : Vec Ideal S1x512 .f32) (r f : Fin 512) :
    k0_pay8 (F := Ideal) v4 x7 x8 (ix2 r f) = (∑ d : Fin 2048, v4 (ix2 r d) * x7 (ix2 d f)) + x8 (ix2 (0 : Fin 1) f) := by
  unfold k0_pay8
  simp only [shapeCast_self]
  rw [dense_at dot_S512x2048_S2048x512_S512x512_1_0_0_1_n_n rfl rfl rfl rfl rfl rfl]

/-- The up branch's rank-16 projection of the blocks at `(r, k)`. -/
theorem pay9_at (v4 : FVec Ideal S512x2048 .bf16) (x9 : Vec Ideal S2048x16 .bf16) (x10 : Vec Ideal S1x16 .f32) (r : Fin 512)
    (k : Fin 16) :
    k0_pay9 (F := Ideal) v4 x9 x10 (ix2 r k) = (∑ d : Fin 2048, v4 (ix2 r d) * x9 (ix2 d k)) + x10 (ix2 (0 : Fin 1) k) := by
  unfold k0_pay9
  simp only [shapeCast_self]
  rw [truncf_apply, dense_at dot_S512x2048_S2048x16_S512x16_1_0_0_1_n_n rfl rfl rfl rfl rfl rfl]

/-- The gate's activation of its pre-activation, at any entry: gelu (its inner polynomial the separately named
    `z + a·z·(z·z)`) plus a tenth of softplus. -/
theorem pay7_at (v29 v34 : FVec Ideal S512x512 .f32) (y : S512x512.Idx)
    (h34 : v34 y = v29 y + Spec.W 0x3D372713#32 * (v29 y * (v29 y * v29 y))) :
    k0_pay7 (F := Ideal) v29 v34 (Scalar.ofBits .f32 0x3F4C422A#32) y = Spec.era (v29 y) := by
  have e : k0_pay7 (F := Ideal) v29 v34 (Scalar.ofBits .f32 0x3F4C422A#32) y
      = v29 y * (Spec.W 0x3F000000#32 * (Spec.W 0x3F800000#32 + Ideal.tanh (Spec.W 0x3F4C422A#32 * v34 y)))
        + Spec.W 0x3DCCCCCD#32 * Scalar.select (Ideal.cmp .one (v29 y - Spec.W 0x00000000#32) (v29 y - Spec.W 0x00000000#32))
            (v29 y + Spec.W 0x00000000#32)
            (max (v29 y) (Spec.W 0x00000000#32)
              + Ideal.log1p (Ideal.exp (Spec.W 0x00000000#32
                  - max (v29 y - Spec.W 0x00000000#32) (-(v29 y - Spec.W 0x00000000#32))))) := rfl
  rw [e, h34, Spec.softplus_kernel]
  rfl

/-- The inner polynomial of gelu at any entry. -/
theorem pay6_at (x0 : Vec Ideal S512x2048 .bf16) (x1 : Vec Ideal S2048x512 .bf16) (x2 : Vec Ideal S1x512 .f32)
    (x3 : Vec Ideal S2048x16 .bf16) (x4 : Vec Ideal S1x16 .f32) (x5 : Vec Ideal S16x512 .bf16) (x6 : Vec Ideal S1x512 .f32)
    (y : S512x512.Idx) :
    k0_pay6 (F := Ideal) x0 x1 x2 x3 x4 x5 x6 y
      = k0_pay5 (F := Ideal) x0 x1 x2 x3 x4 x5 x6 y + Spec.W 0x3D372713#32
          * (k0_pay5 (F := Ideal) x0 x1 x2 x3 x4 x5 x6 y
              * (k0_pay5 (F := Ideal) x0 x1 x2 x3 x4 x5 x6 y * k0_pay5 (F := Ideal) x0 x1 x2 x3 x4 x5 x6 y)) := rfl

/-- The accumulator's update at `(r, o)`: the old entry plus the tile's contraction of gate · up with the down projection. -/
theorem pay1_at (v59 v66 : FVec Ideal S512x512 .f32) (v74 : FVec Ideal S512x16 .bf16) (v76 : FVec Ideal S16x512 .bf16)
    (v78 : Vec Ideal S1x512 .f32) (v87 : Vec Ideal S512x2048 .f32) (v88 : Vec Ideal S512x2048 .bf16) (r : Fin 512) (o : Fin 2048) :
    k0_pay1 (F := Ideal) v59 v66 v74 v76 (constant S512x512 .f32 0x00000000#32) v78 v87 v88 (ix2 r o)
      = v87 (ix2 r o) + ∑ f : Fin 512,
          (v59 (ix2 r f) * (v66 (ix2 r f) + Spec.W 0x40000000#32
              * ((∑ k : Fin 16, v74 (ix2 r k) * v76 (ix2 k f)) + v78 (ix2 (0 : Fin 1) f)))) * v88 (ix2 f o) := by
  unfold k0_pay1
  simp only [shapeCast_self]
  rw [addf_apply, matmul_at dot_S512x512_S512x2048_S512x2048_1_0_0_1_n_n rfl rfl rfl rfl rfl rfl]
  simp only [truncf_apply, mulf_apply, addf_apply, broadcast_apply, matmul_at dot_S512x16_S16x512_S512x512_1_0_0_1_n_n rfl rfl rfl rfl rfl rfl, broadcastTo_1b_ab_apply]
  rfl

/-- The output block at `(r, o)`: the accumulator plus the bias row. -/
theorem pay2_at (v98 : Vec Ideal S512x2048 .f32) (v99 : Vec Ideal S1x2048 .f32) (r : Fin 512) (o : Fin 2048) :
    k0_pay2 (F := Ideal) v98 v99 (ix2 r o) = v98 (ix2 r o) + v99 (ix2 (0 : Fin 1) o) := by
  unfold k0_pay2
  simp only [shapeCast_self]
  rw [addf_apply, broadcastTo_1b_ab_apply]

/-- The block the first point of a row block stores into the accumulator is zero. -/
theorem pay3_at (y : S512x2048.Idx) : k0_pay3 (F := Ideal) y = 0 := by
  unfold k0_pay3
  simp only [shapeCast_self]
  exact Ideal.ofBits_zero_f32

end Cert.KPayload

end
-- ==== Proof.KBlock.lean ====
/-
  One grid point's update of the accumulator, in the layer's own terms.

  If the blocks the body holds are the rows, tile columns and tile rows of the layer's arrays that the point's position
  names (input row `r` of the block is the row `x`; column `f` of a tile is intermediate coordinate `512·j + f`), then
  entry `(r, o)` of the updated accumulator is the old entry plus tile `j`'s share of the contraction for row `x`
  and output coordinate `o`.
-/
import proofs.«132938_j19413252178269_1_alg».proof.Proof.KPayload

noncomputable section

namespace Cert.KBlock

open Cert.KernelIdeal Cert.KernelIdeal.Gen Idealize.ShloMosaic Idealize.ShloMosaic.ValueIdx Cert.KPayload
open Cert.LibBlockSum (pos)

/-- The accumulator after the body, as one term of the blocks and the old accumulator. -/
abbrev updated (x0 : Vec Ideal S512x2048 .bf16) (x1 : Vec Ideal S2048x512 .bf16) (x2 : Vec Ideal S1x512 .f32)
    (x3 : Vec Ideal S2048x16 .bf16) (x4 : Vec Ideal S1x16 .f32) (x5 : Vec Ideal S16x512 .bf16) (x6 : Vec Ideal S1x512 .f32)
    (x7 : Vec Ideal S2048x512 .bf16) (x8 : Vec Ideal S1x512 .f32) (x9 : Vec Ideal S2048x16 .bf16) (x10 : Vec Ideal S1x16 .f32)
    (x11 : Vec Ideal S16x512 .bf16) (x12 : Vec Ideal S1x512 .f32) (x13 : Vec Ideal S512x2048 .bf16)
    (xs : Vec Ideal S512x2048 .f32) : FVec Ideal S512x2048 .f32 :=
  k0_pay1 (F := Ideal)
    (k0_pay7 (k0_pay5 x0 x1 x2 x3 x4 x5 x6) (k0_pay6 x0 x1 x2 x3 x4 x5 x6) (Scalar.ofBits .f32 0x3F4C422A#32))
    (k0_pay8 (k0_pay4 x0) x7 x8) (k0_pay9 (k0_pay4 x0) x9 x10) (k0_pay10 x11)
    (constant S512x512 .f32 0x00000000#32) x12 xs x13

theorem updated_at (P : Spec.Params) (x : Fin 2048 → EReal) (j : Fin 16) (r : Fin 512) (o : Fin 2048)
    (x0 : Vec Ideal S512x2048 .bf16) (x1 : Vec Ideal S2048x512 .bf16) (x2 : Vec Ideal S1x512 .f32)
    (x3 : Vec Ideal S2048x16 .bf16) (x4 : Vec Ideal S1x16 .f32) (x5 : Vec Ideal S16x512 .bf16) (x6 : Vec Ideal S1x512 .f32)
    (x7 : Vec Ideal S2048x512 .bf16) (x8 : Vec Ideal S1x512 .f32) (x9 : Vec Ideal S2048x16 .bf16) (x10 : Vec Ideal S1x16 .f32)
    (x11 : Vec Ideal S16x512 .bf16) (x12 : Vec Ideal S1x512 .f32) (x13 : Vec Ideal S512x2048 .bf16)
    (xs : Vec Ideal S512x2048 .f32)
    (h0 : ∀ d : Fin 2048, x0 (ix2 r d) = x d)
    (h1 : ∀ (d : Fin 2048) (f : Fin 512), x1 (ix2 d f) = P.Wg d (pos j f))
    (h2 : ∀ f : Fin 512, x2 (ix2 (0 : Fin 1) f) = P.bg (pos j f))
    (h3 : ∀ (d : Fin 2048) (k : Fin 16), x3 (ix2 d k) = P.Wgd d k)
    (h4 : ∀ k : Fin 16, x4 (ix2 (0 : Fin 1) k) = P.bgd k)
    (h5 : ∀ (k : Fin 16) (f : Fin 512), x5 (ix2 k f) = P.Wgu k (pos j f))
    (h6 : ∀ f : Fin 512, x6 (ix2 (0 : Fin 1) f) = P.bgu (pos j f))
    (h7 : ∀ (d : Fin 2048) (f : Fin 512), x7 (ix2 d f) = P.Wu d (pos j f))
    (h8 : ∀ f : Fin 512, x8 (ix2 (0 : Fin 1) f) = P.bu (pos j f))
    (h9 : ∀ (d : Fin 2048) (k : Fin 16), x9 (ix2 d k) = P.Wud d k)
    (h10 : ∀ k : Fin 16, x10 (ix2 (0 : Fin 1) k) = P.bud k)
    (h11 : ∀ (k : Fin 16) (f : Fin 512), x11 (ix2 k f) = P.Wuu k (pos j f))
    (h12 : ∀ f : Fin 512, x12 (ix2 (0 : Fin 1) f) = P.buu (pos j f))
    (h13 : ∀ (f : Fin 512) (o' : Fin 2048), x13 (ix2 f o') = P.Wd (pos j f) o') :
    updated x0 x1 x2 x3 x4 x5 x6 x7 x8 x9 x10 x11 x12 x13 xs (ix2 r o)
      = xs (ix2 r o) + ∑ f : Fin 512, Spec.term P x (pos j f) o := by
  have e4 : k0_pay4 (F := Ideal) x0 = x0 := by unfold k0_pay4; exact shapeCast_self _ _
  have e10 : k0_pay10 (F := Ideal) x11 = x11 := by unfold k0_pay10; exact shapeCast_self _ _
  unfold updated
  rw [pay1_at, e4, e10]
  congr 1
  refine Finset.sum_congr rfl fun f _ => ?_
  rw [pay7_at _ _ _ (pay6_at x0 x1 x2 x3 x4 x5 x6 (ix2 r f)), pay5_at, pay8_at, h13]
  simp only [pay9_at, h0, h1, h2, h3, h4, h5, h6, h7, h8, h9, h10, h11, h12]
  rfl

end Cert.KBlock

end
-- ==== Proof.LibFlatten.lean ====
/-
  Layout operations read at an index given by coordinates: the two leading axes of a rank-3 array `[a, b, c]` flattened
  into one (`[n, c]` with `n = a · b`, row `i · b + j`) and split again, a column `[a, 1]` recast as a vector `[a]`,
  and a `[1, 1]` cell broadcast over a matrix. Every lemma is over arbitrary extents and an arbitrary element type; the
  flattened row is given as a variable `p` with its value as a hypothesis, so a literal extent such as `4096` need not
  be spelt as a product.
-/
import Idealize.ShloMosaic.Lib.ValueIdx
import Idealize.ShloMosaic.Lib.Pipeline.Value

noncomputable section

namespace Cert.LibFlatten

open Idealize.ShloMosaic Idealize.ShloMosaic.ValueIdx

variable {α : Type}

/-- An `[a, b, c]` array cast to `[n, c]` reads, at row `p = i · b + j` and column `k`, the operand at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (p : Fin n)
    (hp : p.val = i.val * b + j.val) :
    shapeCast ⟨2, ![n, c]⟩ x h (ix2 p k) = x (ix3 i j k) :=
  shapeCast_apply x h _ _ (by
    rw [Shape.rowMajor_val_three, Shape.rowMajor_val_two]
    show (i.val * b + j.val) * c + k.val = p.val * c + k.val
    rw [hp])

/-- An `[n, c]` array cast to `[a, b, c]` reads, at `(i, j, k)`, the operand at row `p = i · b + j` and column `k`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (p : Fin n)
    (hp : p.val = i.val * b + j.val) :
    shapeCast ⟨3, ![a, b, c]⟩ x h (ix3 i j k) = x (ix2 p k) :=
  shapeCast_apply x h _ _ (by
    rw [Shape.rowMajor_val_two, Shape.rowMajor_val_three]
    show p.val * c + k.val = (i.val * b + j.val) * c + k.val
    rw [hp])

/-- A column `[a, 1]` recast as the vector `[a]` reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A `[1, 1]` cell broadcast to `[a, b]` reads the cell everywhere. -/
theorem broadcastTo_11_ab_apply {a b : ℕ} (v : (⟨2, ![1, 1]⟩ : Shape).Idx → α)
    (h : (⟨2, ![1, 1]⟩ : Shape).Broadcasts ⟨2, ![a, b]⟩) (i : Fin a) (j : Fin b) :
    broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

end Cert.LibFlatten

end
-- ==== Proof.KArrays.lean ====
/-
  The arrays the region finds, and the blocks the grid points read from them.

  Before the region the host flattens the input's two leading axes (row `2048·b + s`), narrows the matrices to a
  shorter float format (the identity on the extended reals) and recasts each bias vector `[n]` as a row `[1, n]`. At grid
  point `t`, with `i = t / 16` (the block of 512 input rows) and `j = t % 16` (the tile of 512 intermediate coordinates),
  a window's block read at `(p, q)` is its array at the block's offset plus `(p, q)`: the input block starts at row `512·i`,
  every weight or bias with an intermediate axis at coordinate `512·j` of that axis, and the rank-16 factors and the output
  bias are read whole.
-/
import proofs.«132938_j19413252178269_1_alg».proof.Proof.Gen.KernelIdeal.Frame
import proofs.«132938_j19413252178269_1_alg».proof.Proof.Arrays
import proofs.«132938_j19413252178269_1_alg».proof.Proof.LibFlatten
import Idealize.ShloMosaic.Lib.Pipeline.Value
import Idealize.ShloMosaic.Lib.StableHlo.Run
import Idealize.ShloMosaic.Lib.Tactic

noncomputable section

namespace Cert.KArrays

open Cert.KernelIdeal Cert.KernelIdeal.Gen Idealize.ShloMosaic Idealize.ShloMosaic.TcCoe Idealize.ShloMosaic.ValueIdx Idealize.SL.Sem
open Cert.LibBlockSum (pos)

variable (m : (ℓ : Loc nD τ sig) → Buf (Elt Ideal) ℓ)

/-! ## The arrays as the region finds them -/

theorem V_main_v1 (c : Dev nD) : (V m c main_v1 : S8192x2048.Idx → EReal)
    = shapeCast S8192x2048 (m ((c : Thread nD τ).loc main_arg0)) shapeCasts_S4x2048x2048_S8192x2048 := by
  show StableHlo.after hostOps0 (fun b => m (c, b)) (Proc.devRef .tc main_v1) = _
  after_results
  rfl

theorem V_main_v2 (c : Dev nD) : (V m c main_v2 : S2048x8192.Idx → EReal)
    = m ((c : Thread nD τ).loc main_arg1) := by
  show StableHlo.after hostOps0 (fun b => m (c, b)) (Proc.devRef .tc main_v2) = _
  after_results
  rfl

theorem V_main_v3 (c : Dev nD) : (V m c main_v3 : S2048x16.Idx → EReal)
    = m ((c : Thread nD τ).loc main_arg3) := by
  show StableHlo.after hostOps0 (fun b => m (c, b)) (Proc.devRef .tc main_v3) = _
  after_results
  rfl

theorem V_main_v4 (c : Dev nD) : (V m c main_v4 : S16x8192.Idx → EReal)
    = m ((c : Thread nD τ).loc main_arg5) := by
  show StableHlo.after hostOps0 (fun b => m (c, b)) (Proc.devRef .tc main_v4) = _
  after_results
  rfl

theorem V_main_v5 (c : Dev nD) : (V m c main_v5 : S2048x8192.Idx → EReal)
    = m ((c : Thread nD τ).loc main_arg7) := by
  show StableHlo.after hostOps0 (fun b => m (c, b)) (Proc.devRef .tc main_v5) = _
  after_results
  rfl

theorem V_main_v6 (c : Dev nD) : (V m c main_v6 : S2048x16.Idx → EReal)
    = m ((c : Thread nD τ).loc main_arg9) := by
  show StableHlo.after hostOps0 (fun b => m (c, b)) (Proc.devRef .tc main_v6) = _
  after_results
  rfl

theorem V_main_v7 (c : Dev nD) : (V m c main_v7 : S16x8192.Idx → EReal)
    = m ((c : Thread nD τ).loc main_arg11) := by
  show StableHlo.after hostOps0 (fun b => m (c, b)) (Proc.devRef .tc main_v7) = _
  after_results
  rfl

theorem V_main_v8 (c : Dev nD) : (V m c main_v8 : S8192x2048.Idx → EReal)
    = m ((c : Thread nD τ).loc main_arg13) := by
  show StableHlo.after hostOps0 (fun b => m (c, b)) (Proc.devRef .tc main_v8) = _
  after_results
  rfl

theorem V_main_v9 (c : Dev nD) : (V m c main_v9 : S1x8192.Idx → EReal)
    = shapeCast S1x8192 (m ((c : Thread nD τ).loc main_arg2)) shapeCasts_S8192_S1x8192 := by
  show StableHlo.after hostOps0 (fun b => m (c, b)) (Proc.devRef .tc main_v9) = _
  after_results
  rfl

theorem V_main_v10 (c : Dev nD) : (V m c main_v10 : S1x16.Idx → EReal)
    = shapeCast S1x16 (m ((c : Thread nD τ).loc main_arg4)) shapeCasts_S16_S1x16 := by
  show StableHlo.after hostOps0 (fun b => m (c, b)) (Proc.devRef .tc main_v10) = _
  after_results
  rfl

theorem V_main_v11 (c : Dev nD) : (V m c main_v11 : S1x8192.Idx → EReal)
    = shapeCast S1x8192 (m ((c : Thread nD τ).loc main_arg6)) shapeCasts_S8192_S1x8192 := by
  show StableHlo.after hostOps0 (fun b => m (c, b)) (Proc.devRef .tc main_v11) = _
  after_results
  rfl

theorem V_main_v12 (c : Dev nD) : (V m c main_v12 : S1x8192.Idx → EReal)
    = shapeCast S1x8192 (m ((c : Thread nD τ).loc main_arg8)) shapeCasts_S8192_S1x8192 := by
  show StableHlo.after hostOps0 (fun b => m (c, b)) (Proc.devRef .tc main_v12) = _
  after_results
  rfl

theorem V_main_v13 (c : Dev nD) : (V m c main_v13 : S1x16.Idx → EReal)
    = shapeCast S1x16 (m ((c : Thread nD τ).loc main_arg10)) shapeCasts_S16_S1x16 := by
  show StableHlo.after hostOps0 (fun b => m (c, b)) (Proc.devRef .tc main_v13) = _
  after_results
  rfl

theorem V_main_v14 (c : Dev nD) : (V m c main_v14 : S1x8192.Idx → EReal)
    = shapeCast S1x8192 (m ((c : Thread nD τ).loc main_arg12)) shapeCasts_S8192_S1x8192 := by
  show StableHlo.after hostOps0 (fun b => m (c, b)) (Proc.devRef .tc main_v14) = _
  after_results
  rfl

theorem V_main_v15 (c : Dev nD) : (V m c main_v15 : S1x2048.Idx → EReal)
    = shapeCast S1x2048 (m ((c : Thread nD τ).loc main_arg14)) shapeCasts_S2048_S1x2048 := by
  show StableHlo.after hostOps0 (fun b => m (c, b)) (Proc.devRef .tc main_v15) = _
  after_results
  rfl

/-! ## A window's block at a point, read at an entry -/

theorem idx_0 : ∀ t : Fin cfg0.N, win0_0.index t 0 = t.val / 16 ∧ win0_0.index t 1 = 0 :=
  (by decide +kernel : ∀ t : Fin grid0.N, win0_0.index t 0 = t.val / 16 ∧ win0_0.index t 1 = 0)

/-- Window 0's block at a point, read at `(p, q)`: the array at block offset plus `(p, q)`. -/
theorem iblk_0 (c : Dev nD) (t : Fin cfg0.N) (p : Fin 512) (q : Fin 2048) (R : Fin 8192) (Q : Fin 2048)
    (hR : R.val = (t.val / 16) * 512 + p.val) (hQ : Q.val = (0) * 2048 + q.val) :
    (iblk m c 0 t : Vec Ideal S512x2048 .bf16) (ix2 p q) = V m c main_v1 (ix2 R Q) := by
  unfold iblk
  rw [View.read_apply]
  refine congrArg (V m c main_v1) (funext fun a => Fin.ext ?_)
  match a with
  | ⟨0, _⟩ => show win0_0.index t 0 * 512 + 1 * p.val = R.val; rw [(idx_0 t).1, hR]; omega
  | ⟨1, _⟩ => show win0_0.index t 1 * 2048 + 1 * q.val = Q.val; rw [(idx_0 t).2, hQ]; omega

theorem idx_1 : ∀ t : Fin cfg0.N, win0_1.index t 0 = 0 ∧ win0_1.index t 1 = t.val % 16 :=
  (by decide +kernel : ∀ t : Fin grid0.N, win0_1.index t 0 = 0 ∧ win0_1.index t 1 = t.val % 16)

/-- Window 1's block at a point, read at `(p, q)`: the array at block offset plus `(p, q)`. -/
theorem iblk_1 (c : Dev nD) (t : Fin cfg0.N) (p : Fin 2048) (q : Fin 512) (R : Fin 2048) (Q : Fin 8192)
    (hR : R.val = (0) * 2048 + p.val) (hQ : Q.val = (t.val % 16) * 512 + q.val) :
    (iblk m c 1 t : Vec Ideal S2048x512 .bf16) (ix2 p q) = V m c main_v2 (ix2 R Q) := by
  unfold iblk
  rw [View.read_apply]
  refine congrArg (V m c main_v2) (funext fun a => Fin.ext ?_)
  match a with
  | ⟨0, _⟩ => show win0_1.index t 0 * 2048 + 1 * p.val = R.val; rw [(idx_1 t).1, hR]; omega
  | ⟨1, _⟩ => show win0_1.index t 1 * 512 + 1 * q.val = Q.val; rw [(idx_1 t).2, hQ]; omega

theorem idx_2 : ∀ t : Fin cfg0.N, win0_2.index t 0 = 0 ∧ win0_2.index t 1 = t.val % 16 :=
  (by decide +kernel : ∀ t : Fin grid0.N, win0_2.index t 0 = 0 ∧ win0_2.index t 1 = t.val % 16)

/-- Window 2's block at a point, read at `(p, q)`: the array at block offset plus `(p, q)`. -/
theorem iblk_2 (c : Dev nD) (t : Fin cfg0.N) (p : Fin 1) (q : Fin 512) (R : Fin 1) (Q : Fin 8192)
    (hR : R.val = (0) * 1 + p.val) (hQ : Q.val = (t.val % 16) * 512 + q.val) :
    (iblk m c 2 t : Vec Ideal S1x512 .f32) (ix2 p q) = V m c main_v9 (ix2 R Q) := by
  unfold iblk
  rw [View.read_apply]
  refine congrArg (V m c main_v9) (funext fun a => Fin.ext ?_)
  match a with
  | ⟨0, _⟩ => show win0_2.index t 0 * 1 + 1 * p.val = R.val; rw [(idx_2 t).1, hR]; omega
  | ⟨1, _⟩ => show win0_2.index t 1 * 512 + 1 * q.val = Q.val; rw [(idx_2 t).2, hQ]; omega

theorem idx_3 : ∀ t : Fin cfg0.N, win0_3.index t 0 = 0 ∧ win0_3.index t 1 = 0 :=
  (by decide +kernel : ∀ t : Fin grid0.N, win0_3.index t 0 = 0 ∧ win0_3.index t 1 = 0)

/-- Window 3's block at a point, read at `(p, q)`: the array at block offset plus `(p, q)`. -/
theorem iblk_3 (c : Dev nD) (t : Fin cfg0.N) (p : Fin 2048) (q : Fin 16) (R : Fin 2048) (Q : Fin 16)
    (hR : R.val = (0) * 2048 + p.val) (hQ : Q.val = (0) * 16 + q.val) :
    (iblk m c 3 t : Vec Ideal S2048x16 .bf16) (ix2 p q) = V m c main_v3 (ix2 R Q) := by
  unfold iblk
  rw [View.read_apply]
  refine congrArg (V m c main_v3) (funext fun a => Fin.ext ?_)
  match a with
  | ⟨0, _⟩ => show win0_3.index t 0 * 2048 + 1 * p.val = R.val; rw [(idx_3 t).1, hR]; omega
  | ⟨1, _⟩ => show win0_3.index t 1 * 16 + 1 * q.val = Q.val; rw [(idx_3 t).2, hQ]; omega

theorem idx_4 : ∀ t : Fin cfg0.N, win0_4.index t 0 = 0 ∧ win0_4.index t 1 = 0 :=
  (by decide +kernel : ∀ t : Fin grid0.N, win0_4.index t 0 = 0 ∧ win0_4.index t 1 = 0)

/-- Window 4's block at a point, read at `(p, q)`: the array at block offset plus `(p, q)`. -/
theorem iblk_4 (c : Dev nD) (t : Fin cfg0.N) (p : Fin 1) (q : Fin 16) (R : Fin 1) (Q : Fin 16)
    (hR : R.val = (0) * 1 + p.val) (hQ : Q.val = (0) * 16 + q.val) :
    (iblk m c 4 t : Vec Ideal S1x16 .f32) (ix2 p q) = V m c main_v10 (ix2 R Q) := by
  unfold iblk
  rw [View.read_apply]
  refine congrArg (V m c main_v10) (funext fun a => Fin.ext ?_)
  match a with
  | ⟨0, _⟩ => show win0_4.index t 0 * 1 + 1 * p.val = R.val; rw [(idx_4 t).1, hR]; omega
  | ⟨1, _⟩ => show win0_4.index t 1 * 16 + 1 * q.val = Q.val; rw [(idx_4 t).2, hQ]; omega

theorem idx_5 : ∀ t : Fin cfg0.N, win0_5.index t 0 = 0 ∧ win0_5.index t 1 = t.val % 16 :=
  (by decide +kernel : ∀ t : Fin grid0.N, win0_5.index t 0 = 0 ∧ win0_5.index t 1 = t.val % 16)

/-- Window 5's block at a point, read at `(p, q)`: the array at block offset plus `(p, q)`. -/
theorem iblk_5 (c : Dev nD) (t : Fin cfg0.N) (p : Fin 16) (q : Fin 512) (R : Fin 16) (Q : Fin 8192)
    (hR : R.val = (0) * 16 + p.val) (hQ : Q.val = (t.val % 16) * 512 + q.val) :
    (iblk m c 5 t : Vec Ideal S16x512 .bf16) (ix2 p q) = V m c main_v4 (ix2 R Q) := by
  unfold iblk
  rw [View.read_apply]
  refine congrArg (V m c main_v4) (funext fun a => Fin.ext ?_)
  match a with
  | ⟨0, _⟩ => show win0_5.index t 0 * 16 + 1 * p.val = R.val; rw [(idx_5 t).1, hR]; omega
  | ⟨1, _⟩ => show win0_5.index t 1 * 512 + 1 * q.val = Q.val; rw [(idx_5 t).2, hQ]; omega

theorem idx_6 : ∀ t : Fin cfg0.N, win0_6.index t 0 = 0 ∧ win0_6.index t 1 = t.val % 16 :=
  (by decide +kernel : ∀ t : Fin grid0.N, win0_6.index t 0 = 0 ∧ win0_6.index t 1 = t.val % 16)

/-- Window 6's block at a point, read at `(p, q)`: the array at block offset plus `(p, q)`. -/
theorem iblk_6 (c : Dev nD) (t : Fin cfg0.N) (p : Fin 1) (q : Fin 512) (R : Fin 1) (Q : Fin 8192)
    (hR : R.val = (0) * 1 + p.val) (hQ : Q.val = (t.val % 16) * 512 + q.val) :
    (iblk m c 6 t : Vec Ideal S1x512 .f32) (ix2 p q) = V m c main_v11 (ix2 R Q) := by
  unfold iblk
  rw [View.read_apply]
  refine congrArg (V m c main_v11) (funext fun a => Fin.ext ?_)
  match a with
  | ⟨0, _⟩ => show win0_6.index t 0 * 1 + 1 * p.val = R.val; rw [(idx_6 t).1, hR]; omega
  | ⟨1, _⟩ => show win0_6.index t 1 * 512 + 1 * q.val = Q.val; rw [(idx_6 t).2, hQ]; omega

theorem idx_7 : ∀ t : Fin cfg0.N, win0_7.index t 0 = 0 ∧ win0_7.index t 1 = t.val % 16 :=
  (by decide +kernel : ∀ t : Fin grid0.N, win0_7.index t 0 = 0 ∧ win0_7.index t 1 = t.val % 16)

/-- Window 7's block at a point, read at `(p, q)`: the array at block offset plus `(p, q)`. -/
theorem iblk_7 (c : Dev nD) (t : Fin cfg0.N) (p : Fin 2048) (q : Fin 512) (R : Fin 2048) (Q : Fin 8192)
    (hR : R.val = (0) * 2048 + p.val) (hQ : Q.val = (t.val % 16) * 512 + q.val) :
    (iblk m c 7 t : Vec Ideal S2048x512 .bf16) (ix2 p q) = V m c main_v5 (ix2 R Q) := by
  unfold iblk
  rw [View.read_apply]
  refine congrArg (V m c main_v5) (funext fun a => Fin.ext ?_)
  match a with
  | ⟨0, _⟩ => show win0_7.index t 0 * 2048 + 1 * p.val = R.val; rw [(idx_7 t).1, hR]; omega
  | ⟨1, _⟩ => show win0_7.index t 1 * 512 + 1 * q.val = Q.val; rw [(idx_7 t).2, hQ]; omega

theorem idx_8 : ∀ t : Fin cfg0.N, win0_8.index t 0 = 0 ∧ win0_8.index t 1 = t.val % 16 :=
  (by decide +kernel : ∀ t : Fin grid0.N, win0_8.index t 0 = 0 ∧ win0_8.index t 1 = t.val % 16)

/-- Window 8's block at a point, read at `(p, q)`: the array at block offset plus `(p, q)`. -/
theorem iblk_8 (c : Dev nD) (t : Fin cfg0.N) (p : Fin 1) (q : Fin 512) (R : Fin 1) (Q : Fin 8192)
    (hR : R.val = (0) * 1 + p.val) (hQ : Q.val = (t.val % 16) * 512 + q.val) :
    (iblk m c 8 t : Vec Ideal S1x512 .f32) (ix2 p q) = V m c main_v12 (ix2 R Q) := by
  unfold iblk
  rw [View.read_apply]
  refine congrArg (V m c main_v12) (funext fun a => Fin.ext ?_)
  match a with
  | ⟨0, _⟩ => show win0_8.index t 0 * 1 + 1 * p.val = R.val; rw [(idx_8 t).1, hR]; omega
  | ⟨1, _⟩ => show win0_8.index t 1 * 512 + 1 * q.val = Q.val; rw [(idx_8 t).2, hQ]; omega

theorem idx_9 : ∀ t : Fin cfg0.N, win0_9.index t 0 = 0 ∧ win0_9.index t 1 = 0 :=
  (by decide +kernel : ∀ t : Fin grid0.N, win0_9.index t 0 = 0 ∧ win0_9.index t 1 = 0)

/-- Window 9's block at a point, read at `(p, q)`: the array at block offset plus `(p, q)`. -/
theorem iblk_9 (c : Dev nD) (t : Fin cfg0.N) (p : Fin 2048) (q : Fin 16) (R : Fin 2048) (Q : Fin 16)
    (hR : R.val = (0) * 2048 + p.val) (hQ : Q.val = (0) * 16 + q.val) :
    (iblk m c 9 t : Vec Ideal S2048x16 .bf16) (ix2 p q) = V m c main_v6 (ix2 R Q) := by
  unfold iblk
  rw [View.read_apply]
  refine congrArg (V m c main_v6) (funext fun a => Fin.ext ?_)
  match a with
  | ⟨0, _⟩ => show win0_9.index t 0 * 2048 + 1 * p.val = R.val; rw [(idx_9 t).1, hR]; omega
  | ⟨1, _⟩ => show win0_9.index t 1 * 16 + 1 * q.val = Q.val; rw [(idx_9 t).2, hQ]; omega

theorem idx_10 : ∀ t : Fin cfg0.N, win0_10.index t 0 = 0 ∧ win0_10.index t 1 = 0 :=
  (by decide +kernel : ∀ t : Fin grid0.N, win0_10.index t 0 = 0 ∧ win0_10.index t 1 = 0)

/-- Window 10's block at a point, read at `(p, q)`: the array at block offset plus `(p, q)`. -/
theorem iblk_10 (c : Dev nD) (t : Fin cfg0.N) (p : Fin 1) (q : Fin 16) (R : Fin 1) (Q : Fin 16)
    (hR : R.val = (0) * 1 + p.val) (hQ : Q.val = (0) * 16 + q.val) :
    (iblk m c 10 t : Vec Ideal S1x16 .f32) (ix2 p q) = V m c main_v13 (ix2 R Q) := by
  unfold iblk
  rw [View.read_apply]
  refine congrArg (V m c main_v13) (funext fun a => Fin.ext ?_)
  match a with
  | ⟨0, _⟩ => show win0_10.index t 0 * 1 + 1 * p.val = R.val; rw [(idx_10 t).1, hR]; omega
  | ⟨1, _⟩ => show win0_10.index t 1 * 16 + 1 * q.val = Q.val; rw [(idx_10 t).2, hQ]; omega

theorem idx_11 : ∀ t : Fin cfg0.N, win0_11.index t 0 = 0 ∧ win0_11.index t 1 = t.val % 16 :=
  (by decide +kernel : ∀ t : Fin grid0.N, win0_11.index t 0 = 0 ∧ win0_11.index t 1 = t.val % 16)

/-- Window 11's block at a point, read at `(p, q)`: the array at block offset plus `(p, q)`. -/
theorem iblk_11 (c : Dev nD) (t : Fin cfg0.N) (p : Fin 16) (q : Fin 512) (R : Fin 16) (Q : Fin 8192)
    (hR : R.val = (0) * 16 + p.val) (hQ : Q.val = (t.val % 16) * 512 + q.val) :
    (iblk m c 11 t : Vec Ideal S16x512 .bf16) (ix2 p q) = V m c main_v7 (ix2 R Q) := by
  unfold iblk
  rw [View.read_apply]
  refine congrArg (V m c main_v7) (funext fun a => Fin.ext ?_)
  match a with
  | ⟨0, _⟩ => show win0_11.index t 0 * 16 + 1 * p.val = R.val; rw [(idx_11 t).1, hR]; omega
  | ⟨1, _⟩ => show win0_11.index t 1 * 512 + 1 * q.val = Q.val; rw [(idx_11 t).2, hQ]; omega

theorem idx_12 : ∀ t : Fin cfg0.N, win0_12.index t 0 = 0 ∧ win0_12.index t 1 = t.val % 16 :=
  (by decide +kernel : ∀ t : Fin grid0.N, win0_12.index t 0 = 0 ∧ win0_12.index t 1 = t.val % 16)

/-- Window 12's block at a point, read at `(p, q)`: the array at block offset plus `(p, q)`. -/
theorem iblk_12 (c : Dev nD) (t : Fin cfg0.N) (p : Fin 1) (q : Fin 512) (R : Fin 1) (Q : Fin 8192)
    (hR : R.val = (0) * 1 + p.val) (hQ : Q.val = (t.val % 16) * 512 + q.val) :
    (iblk m c 12 t : Vec Ideal S1x512 .f32) (ix2 p q) = V m c main_v14 (ix2 R Q) := by
  unfold iblk
  rw [View.read_apply]
  refine congrArg (V m c main_v14) (funext fun a => Fin.ext ?_)
  match a with
  | ⟨0, _⟩ => show win0_12.index t 0 * 1 + 1 * p.val = R.val; rw [(idx_12 t).1, hR]; omega
  | ⟨1, _⟩ => show win0_12.index t 1 * 512 + 1 * q.val = Q.val; rw [(idx_12 t).2, hQ]; omega

theorem idx_13 : ∀ t : Fin cfg0.N, win0_13.index t 0 = t.val % 16 ∧ win0_13.index t 1 = 0 :=
  (by decide +kernel : ∀ t : Fin grid0.N, win0_13.index t 0 = t.val % 16 ∧ win0_13.index t 1 = 0)

/-- Window 13's block at a point, read at `(p, q)`: the array at block offset plus `(p, q)`. -/
theorem iblk_13 (c : Dev nD) (t : Fin cfg0.N) (p : Fin 512) (q : Fin 2048) (R : Fin 8192) (Q : Fin 2048)
    (hR : R.val = (t.val % 16) * 512 + p.val) (hQ : Q.val = (0) * 2048 + q.val) :
    (iblk m c 13 t : Vec Ideal S512x2048 .bf16) (ix2 p q) = V m c main_v8 (ix2 R Q) := by
  unfold iblk
  rw [View.read_apply]
  refine congrArg (V m c main_v8) (funext fun a => Fin.ext ?_)
  match a with
  | ⟨0, _⟩ => show win0_13.index t 0 * 512 + 1 * p.val = R.val; rw [(idx_13 t).1, hR]; omega
  | ⟨1, _⟩ => show win0_13.index t 1 * 2048 + 1 * q.val = Q.val; rw [(idx_13 t).2, hQ]; omega

theorem idx_14 : ∀ t : Fin cfg0.N, win0_14.index t 0 = 0 ∧ win0_14.index t 1 = 0 :=
  (by decide +kernel : ∀ t : Fin grid0.N, win0_14.index t 0 = 0 ∧ win0_14.index t 1 = 0)

/-- Window 14's block at a point, read at `(p, q)`: the array at block offset plus `(p, q)`. -/
theorem iblk_14 (c : Dev nD) (t : Fin cfg0.N) (p : Fin 1) (q : Fin 2048) (R : Fin 1) (Q : Fin 2048)
    (hR : R.val = (0) * 1 + p.val) (hQ : Q.val = (0) * 2048 + q.val) :
    (iblk m c 14 t : Vec Ideal S1x2048 .f32) (ix2 p q) = V m c main_v15 (ix2 R Q) := by
  unfold iblk
  rw [View.read_apply]
  refine congrArg (V m c main_v15) (funext fun a => Fin.ext ?_)
  match a with
  | ⟨0, _⟩ => show win0_14.index t 0 * 1 + 1 * p.val = R.val; rw [(idx_14 t).1, hR]; omega
  | ⟨1, _⟩ => show win0_14.index t 1 * 2048 + 1 * q.val = Q.val; rw [(idx_14 t).2, hQ]; omega

end Cert.KArrays

end
-- ==== Proof.KInv.lean ====
/-
  The accumulator after each grid point is the running sum of the tiles met so far.

  Point `t` of the 16 × 16 grid works on input rows `512·(t / 16) …` and on tile `t % 16` of the intermediate axis. The
  blocks it is handed are those rows of the flattened input and that tile's columns (rows, for the down projection) of
  the weights, so its update adds tile `t % 16`'s share of the layer's contraction to every entry of the accumulator.
  At a row block's first tile the accumulator starts from zero; by induction on the point, after point `t` entry `(r, o)`
  holds the running sum over tiles `0 … t % 16` for input row `512·(t / 16) + r` and output coordinate `o`. At the last
  tile the output block is that running sum, the whole contraction, plus the output bias: the layer's output.
-/
import proofs.«132938_j19413252178269_1_alg».proof.Proof.KPieces
import proofs.«132938_j19413252178269_1_alg».proof.Proof.KBlock
import proofs.«132938_j19413252178269_1_alg».proof.Proof.KArrays

noncomputable section

namespace Cert.KInv

open Cert.KernelIdeal Cert.KernelIdeal.Gen Idealize.ShloMosaic Idealize.ShloMosaic.TcCoe Idealize.ShloMosaic.ValueIdx Idealize.SL.Sem
open Cert.LibBlockSum (pos pos_val)
open Cert.KArrays

variable (m : (ℓ : Loc nD τ sig) → Buf (Elt Ideal) ℓ)

/-- The layer's weights and biases, read out of the launch memory's argument arrays. -/
def PK (c : Dev nD) : Spec.Params :=
  Cert.Arrays.paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- Row `p` of the flattened input as the region finds it. -/
def xrow (c : Dev nD) (p : Fin 8192) : Fin 2048 → EReal := fun d => V m c main_v1 (ix2 p d)

/-- The input row that row `r` of row block `i` is. -/
def rowIdx (i : ℕ) (r : Fin 512) : Fin 8192 := ⟨(i * 512 + r.val) % 8192, Nat.mod_lt _ (by norm_num)⟩

theorem rowIdx_val (i : ℕ) (hi : i < 16) (r : Fin 512) : (rowIdx i r).val = i * 512 + r.val := by
  have := r.isLt
  show (i * 512 + r.val) % 8192 = _
  exact Nat.mod_eq_of_lt (by omega)

/-- A bias vector recast as a row reads its entries along the row. -/
theorem row_cast_apply {α : Type} {n : ℕ} (x : (⟨1, ![n]⟩ : Shape).Idx → α)
    (h : (⟨1, ![n]⟩ : Shape).ShapeCasts ⟨2, ![1, n]⟩) (q : Fin n) :
    shapeCast ⟨2, ![1, n]⟩ x h (ix2 (0 : Fin 1) q) = x (ix1 q) :=
  shapeCast_apply x h _ _ (by
    rw [Shape.rowMajor_val_one, Shape.rowMajor_val_two]
    show q.val = 0 * n + q.val
    omega)

/-- ONE POINT'S UPDATE: entry `(r, o)` of the updated accumulator is the old entry plus tile `t % 16`'s share of the
    contraction for input row `512·(t / 16) + r`. -/
theorem upd_at (c : Dev nD) (t : Fin cfg0.N) (xs : Vec Ideal S512x2048 .f32) (r : Fin 512) (o : Fin 2048) :
    Cert.KPieces.upd (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xs (ix2 r o)
      = xs (ix2 r o) + Spec.tile (PK m c) (xrow m c (rowIdx (t.val / 16) r)) o (t.val % 16) := by
  have hN : t.val < 256 := lt_of_lt_of_eq t.isLt (show cfg0.N = 256 from N_0)
  have hj : t.val % 16 < 16 := Nat.mod_lt _ (by norm_num)
  have hq : ∀ f : Fin 512, (pos (⟨t.val % 16, hj⟩ : Fin 16) f).val = (t.val % 16) * 512 + f.val := fun f => by
    rw [pos_val]; show f.val + 512 * (t.val % 16) = _; omega
  have hR : (rowIdx (t.val / 16) r).val = (t.val / 16) * 512 + r.val := rowIdx_val _ (by omega) r
  rw [show Spec.tile (PK m c) (xrow m c (rowIdx (t.val / 16) r)) o (t.val % 16)
      = ∑ f : Fin 512, Spec.term (PK m c) (xrow m c (rowIdx (t.val / 16) r)) (pos (⟨t.val % 16, hj⟩ : Fin 16) f) o from by
    unfold Spec.tile; rw [dif_pos hj]]
  exact Cert.KBlock.updated_at (PK m c) (xrow m c (rowIdx (t.val / 16) r)) ⟨t.val % 16, hj⟩ r o
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xs
    (fun d => iblk_0 m c t r d (rowIdx (t.val / 16) r) d hR (by omega))
    (fun d f => (iblk_1 m c t d f d (pos (⟨t.val % 16, hj⟩ : Fin 16) f) (by omega) (hq f)).trans (congrFun (V_main_v2 m c) _))
    (fun f => (iblk_2 m c t 0 f 0 (pos (⟨t.val % 16, hj⟩ : Fin 16) f) (by omega) (hq f)).trans
      ((congrFun (V_main_v9 m c) _).trans (row_cast_apply _ _ _)))
    (fun d k => (iblk_3 m c t d k d k (by omega) (by omega)).trans (congrFun (V_main_v3 m c) _))
    (fun k => (iblk_4 m c t 0 k 0 k (by omega) (by omega)).trans ((congrFun (V_main_v10 m c) _).trans (row_cast_apply _ _ _)))
    (fun k f => (iblk_5 m c t k f k (pos (⟨t.val % 16, hj⟩ : Fin 16) f) (by omega) (hq f)).trans (congrFun (V_main_v4 m c) _))
    (fun f => (iblk_6 m c t 0 f 0 (pos (⟨t.val % 16, hj⟩ : Fin 16) f) (by omega) (hq f)).trans
      ((congrFun (V_main_v11 m c) _).trans (row_cast_apply _ _ _)))
    (fun d f => (iblk_7 m c t d f d (pos (⟨t.val % 16, hj⟩ : Fin 16) f) (by omega) (hq f)).trans (congrFun (V_main_v5 m c) _))
    (fun f => (iblk_8 m c t 0 f 0 (pos (⟨t.val % 16, hj⟩ : Fin 16) f) (by omega) (hq f)).trans
      ((congrFun (V_main_v12 m c) _).trans (row_cast_apply _ _ _)))
    (fun d k => (iblk_9 m c t d k d k (by omega) (by omega)).trans (congrFun (V_main_v6 m c) _))
    (fun k => (iblk_10 m c t 0 k 0 k (by omega) (by omega)).trans ((congrFun (V_main_v13 m c) _).trans (row_cast_apply _ _ _)))
    (fun k f => (iblk_11 m c t k f k (pos (⟨t.val % 16, hj⟩ : Fin 16) f) (by omega) (hq f)).trans (congrFun (V_main_v7 m c) _))
    (fun f => (iblk_12 m c t 0 f 0 (pos (⟨t.val % 16, hj⟩ : Fin 16) f) (by omega) (hq f)).trans
      ((congrFun (V_main_v14 m c) _).trans (row_cast_apply _ _ _)))
    (fun f o' => (iblk_13 m c t f o' (pos (⟨t.val % 16, hj⟩ : Fin 16) f) o' (hq f) (by omega)).trans (congrFun (V_main_v8 m c) _))

/-- What the accumulator holds after point `n`: the running sum over the tiles `0 … n % 16`, row by row. -/
def accAt (c : Dev nD) (n : ℕ) : Vec Ideal S512x2048 .f32 := fun y =>
  Spec.running (PK m c) (xrow m c (rowIdx (n / 16) ⟨(y 0).val, (y 0).isLt⟩)) ⟨(y 1).val, (y 1).isLt⟩ (n % 16)

theorem accAt_apply (c : Dev nD) (n : ℕ) (r : Fin 512) (o : Fin 2048) :
    accAt m c n (ix2 r o) = Spec.running (PK m c) (xrow m c (rowIdx (n / 16) r)) o (n % 16) := rfl

/-- The first tile of a row block: the accumulator starts from zero. -/
theorem acc_first (c : Dev nD) (t : Fin cfg0.N) (h0 : t.val % 16 = 0) : (outsAt0 m c t.val t.isLt).2 = accAt m c t.val := by
  have h1 : ¬t.val % 16 = 15 := by omega
  rw [outsAt0_A m c t h0 h1]
  dsimp only
  rw [Cert.KPieces.sout_A]
  funext y
  obtain ⟨r, o, rfl⟩ : ∃ (r : Fin 512) (o : Fin 2048), y = ix2 r o := ⟨y 0, y 1, eq_ix2 y⟩
  rw [upd_at m c t _ r o, Cert.KPayload.pay3_at, accAt_apply, h0, Spec.running_zero, zero_add]

/-- A later tile that is not the last: the accumulator found is the point before's. -/
theorem acc_mid (c : Dev nD) (t : Fin cfg0.N) (h0 : ¬t.val % 16 = 0) (h1 : ¬t.val % 16 = 15)
    (ih : (outsAt0 m c (t.val - 1) (Nat.lt_of_le_of_lt (Nat.sub_le _ _) t.isLt)).2 = accAt m c (t.val - 1)) : (outsAt0 m c t.val t.isLt).2 = accAt m c t.val := by
  rw [outsAt0_B m c t h0 h1]
  dsimp only
  rw [Cert.KPieces.sout_B, ih]
  funext y
  obtain ⟨r, o, rfl⟩ : ∃ (r : Fin 512) (o : Fin 2048), y = ix2 r o := ⟨y 0, y 1, eq_ix2 y⟩
  have hd : (t.val - 1) / 16 = t.val / 16 := by omega
  have hm : t.val % 16 = (t.val - 1) % 16 + 1 := by omega
  rw [upd_at m c t _ r o, accAt_apply, accAt_apply, hd, hm, Spec.running_succ]

/-- The last tile: the same update. -/
theorem acc_last (c : Dev nD) (t : Fin cfg0.N) (h0 : ¬t.val % 16 = 0) (h1 : t.val % 16 = 15)
    (ih : (outsAt0 m c (t.val - 1) (Nat.lt_of_le_of_lt (Nat.sub_le _ _) t.isLt)).2 = accAt m c (t.val - 1)) : (outsAt0 m c t.val t.isLt).2 = accAt m c t.val := by
  rw [outsAt0_C m c t h0 h1]
  dsimp only
  rw [Cert.KPieces.sout_C, ih]
  funext y
  obtain ⟨r, o, rfl⟩ : ∃ (r : Fin 512) (o : Fin 2048), y = ix2 r o := ⟨y 0, y 1, eq_ix2 y⟩
  have hd : (t.val - 1) / 16 = t.val / 16 := by omega
  have hm : t.val % 16 = (t.val - 1) % 16 + 1 := by omega
  rw [upd_at m c t _ r o, accAt_apply, accAt_apply, hd, hm, Spec.running_succ]

/-- THE INVARIANT, by induction on the point. -/
theorem acc_eq (c : Dev nD) : ∀ (n : ℕ) (h : n < cfg0.N), (outsAt0 m c n h).2 = accAt m c n := by
  intro n
  induction n using Nat.strong_induction_on with
  | _ n ih =>
    intro h
    by_cases h0 : n % 16 = 0
    · exact acc_first m c ⟨n, h⟩ h0
    · have hp : n - 1 < n := by omega
      by_cases h1 : n % 16 = 15
      · exact acc_last m c ⟨n, h⟩ h0 h1 (ih (n - 1) hp _)
      · exact acc_mid m c ⟨n, h⟩ h0 h1 (ih (n - 1) hp _)

/-- The output block the last tile's point stores: the layer's output for the block's rows. -/
theorem out_at (c : Dev nD) (t : Fin cfg0.N) (h15 : t.val % 16 = 15) (r : Fin 512) (o : Fin 2048) :
    (outsAt0 m c t.val t.isLt).1 (ix2 r o) = Spec.out (PK m c) (xrow m c (rowIdx (t.val / 16) r)) o := by
  have h0 : ¬t.val % 16 = 0 := by omega
  have hd : (t.val - 1) / 16 = t.val / 16 := by omega
  have hm14 : (t.val - 1) % 16 = 14 := by omega
  rw [outsAt0_C m c t h0 h15]
  dsimp only
  rw [Cert.KPieces.out_C, Cert.KPayload.pay2_at, upd_at m c t _ r o, acc_eq m c (t.val - 1) _, accAt_apply, hd, hm14, h15,
    Spec.out_eq_running, (Spec.running_succ (PK m c) _ o 14 : Spec.running (PK m c) _ o 15 = _)]
  congr 1
  exact (iblk_14 m c t 0 o 0 o (by omega) (by omega)).trans ((congrFun (V_main_v15 m c) _).trans (row_cast_apply _ _ _))

end Cert.KInv

end
-- ==== Proof.KFinal.lean ====
/-
  The kernel's result array is the layer.

  Only the last tile's points write the output window back, point `16·i + 15` writing rows `512·i … 512·i + 511`: those
  sixteen blocks cover the `[8192, 2048]` array, and each holds the layer's output for its rows, so the array the region
  leaves is the layer over the flattened input. After the region the host splits the row axis again, `p = 2048·b + s`,
  and row `p` of the flattened input is row `(b, s)` of the input: the result `[4, 2048, 2048]` is the layer over
  the argument arrays.
-/
import proofs.«132938_j19413252178269_1_alg».proof.Proof.KInv

noncomputable section

namespace Cert.KFinal

open Cert.KernelIdeal Cert.KernelIdeal.Gen Idealize.ShloMosaic Idealize.ShloMosaic.TcCoe Idealize.ShloMosaic.ValueIdx Idealize.SL.Sem
open Idealize.ShloMosaic.Pipeline (Dat)
open Cert.KArrays Cert.KInv

variable (m : (ℓ : Loc nD τ sig) → Buf (Elt Ideal) ℓ) (ρ : Dev nD → PrngReg)

/-- The array the region leaves: the layer's output for each row of the flattened input. -/
def Gk (c : Dev nD) : S8192x2048.Idx → EReal := fun y =>
  Spec.out (PK m c) (xrow m c ⟨(y 0).val, (y 0).isLt⟩) ⟨(y 1).val, (y 1).isLt⟩

/-- The output window's block index at point `t`: row block `t / 16`, the one column block. -/
theorem idx_15 : ∀ t : Fin cfg0.N, win0_15.index t 0 = t.val / 16 ∧ win0_15.index t 1 = 0 :=
  (by decide +kernel : ∀ t : Fin grid0.N, win0_15.index t 0 = t.val / 16 ∧ win0_15.index t 1 = 0)

/-- What a last-tile point writes back is its block of the layer's array. -/
theorem flushed_eq (c : Dev nD) (t : Fin cfg0.N) (hf : (cfg0.win 15).flush t = true) :
    (dats m 0 c).flushed 15 t = ((cfg0.win 15).blk t).view.read (Elt Ideal) (Gk m c) := by
  have h15 : t.val % 16 = 15 := (flush0_15 t).mp hf
  have hN : t.val < 256 := lt_of_lt_of_eq t.isLt (show cfg0.N = 256 from N_0)
  show (cfg0.win 15).cut (grid0.coords t) ((dats m 0 c).after 15 t) = _
  rw [after0_15]
  funext y
  obtain ⟨r, o, rfl⟩ : ∃ (r : Fin 512) (o : Fin 2048), y = ix2 r o := ⟨y 0, y 1, eq_ix2 y⟩
  show (outsAt0 m c t.val t.isLt).1 (ix2 r o) = Gk m c (((cfg0.win 15).blk t).view.emb (ix2 r o))
  rw [out_at m c t h15 r o]
  have he : ((cfg0.win 15).blk t).view.emb (ix2 r o) = ix2 (rowIdx (t.val / 16) r) o := by
    funext a; apply Fin.ext
    match a with
    | ⟨0, _⟩ =>
      show win0_15.index t 0 * 512 + 1 * r.val = (rowIdx (t.val / 16) r).val
      rw [(idx_15 t).1, rowIdx_val _ (by omega)]; omega
    | ⟨1, _⟩ =>
      show win0_15.index t 1 * 2048 + 1 * o.val = o.val
      rw [(idx_15 t).2]; omega
  rw [he]
  rfl

/-- An index of the array is in point `t`'s block iff each coordinate is in the block's range on its axis. -/
theorem mem_blk (t : Fin cfg0.N) (i : S8192x2048.Idx) :
    i ∈ ((cfg0.win 15).blk t).view.set ↔ ∀ a : Fin 2, win0_15.index t a * S512x2048.size a ≤ (i a).val
      ∧ (i a).val < win0_15.index t a * S512x2048.size a + S512x2048.size a := by
  show i ∈ ((View.whole main_v16).slice (win0_15.rect t)).set ↔ _
  rw [View.set_slice_whole, Rect.mem_set_unit]
  exact Iff.rfl

/-- Every row is in the block of its row block's last-tile point. -/
theorem covered (i : S8192x2048.Idx) :
    ∃ t : Fin cfg0.N, (cfg0.win 15).flush t = true ∧ i ∈ ((cfg0.win 15).blk t).view.set := by
  have hi0 : (i 0).val < 8192 := (i 0).isLt
  have hi1 : (i 1).val < 2048 := (i 1).isLt
  have hN : cfg0.N = 256 := N_0
  have ht : (i 0).val / 512 * 16 + 15 < cfg0.N := by rw [hN]; omega
  refine ⟨⟨(i 0).val / 512 * 16 + 15, ht⟩, (flush0_15 _).mpr (by show ((i 0).val / 512 * 16 + 15) % 16 = 15; omega), ?_⟩
  rw [mem_blk]
  intro a
  have e0 := (idx_15 ⟨(i 0).val / 512 * 16 + 15, ht⟩).1
  have e1 := (idx_15 ⟨(i 0).val / 512 * 16 + 15, ht⟩).2
  have e0' : win0_15.index ⟨(i 0).val / 512 * 16 + 15, ht⟩ 0 = (i 0).val / 512 := by rw [e0]; show ((i 0).val / 512 * 16 + 15) / 16 = _; omega
  match a with
  | ⟨0, _⟩ =>
    show win0_15.index ⟨(i 0).val / 512 * 16 + 15, ht⟩ 0 * 512 ≤ (i 0).val
      ∧ (i 0).val < win0_15.index ⟨(i 0).val / 512 * 16 + 15, ht⟩ 0 * 512 + 512
    rw [e0']; omega
  | ⟨1, _⟩ =>
    show win0_15.index ⟨(i 0).val / 512 * 16 + 15, ht⟩ 1 * 2048 ≤ (i 1).val
      ∧ (i 1).val < win0_15.index ⟨(i 0).val / 512 * 16 + 15, ht⟩ 1 * 2048 + 2048
    rw [e1]; omega

/-- The array the region leaves is the layer over the flattened input. -/
theorem final (c : Dev nD) : (dats m 0 c).arrAt 15 cfg0.N = Gk m c :=
  (dats m 0 c).arrAt_eq_of_cover 15 (Gk m c) (flushed_eq m c) covered

/-- The result after the host's last reshape: the layer over the argument arrays. -/
theorem tail_eq (c : Dev nD) :
    Pipeline.afterTail₀ cfgs (dats m) 0 (V0 m) [hostOps1] c main_v17 = Cert.Arrays.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  unfold Pipeline.afterTail₀
  show StableHlo.after hostOps1 _ (Proc.devRef .tc main_v17) = _
  after_results
  rw [(Pipeline.withArrays_arr spec0 launch0.win.arr_inj c _ _ 15).trans (final m c)]
  funext i
  obtain ⟨b, s, o, rfl⟩ : ∃ (b : Fin 4) (s : Fin 2048) (o : Fin 2048), i = ix3 b s o := ⟨i 0, i 1, i 2, eq_ix3 i⟩
  have hp : b.val * 2048 + s.val < 8192 := by have := b.isLt; have := s.isLt; omega
  show shapeCast S4x2048x2048 (Gk m c) shapeCasts_S8192x2048_S4x2048x2048 (ix3 b s o) = _
  refine (Cert.LibFlatten.shapeCast_nc_abc_apply (Gk m c) shapeCasts_S8192x2048_S4x2048x2048 b s o ⟨b.val * 2048 + s.val, hp⟩ rfl).trans ?_
  show Spec.out (PK m c) (xrow m c ⟨b.val * 2048 + s.val, hp⟩) o = Spec.out (PK m c) (fun d => (m ((c : Thread nD τ).loc main_arg0)) (ix3 b s d)) o
  congr 1
  funext d
  exact (congrFun (V_main_v1 m c) _).trans (Cert.LibFlatten.shapeCast_abc_nc_apply _ _ b s d ⟨b.val * 2048 + s.val, hp⟩ rfl)

/-- THE KERNEL'S RUN, read: the result array is the layer over the argument arrays, which end unchanged. -/
theorem krun : θ_run defs (onTc (τ := τ) (main (F := Ideal))) ⟨m, fun _ => 0, ρ⟩ (fun r => ∀ c : Dev nD,
      r.2.mem ((c.tc : Thread nD τ).loc main_v17) = Cert.Arrays.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨((h c).2 main_v17 (Pipeline.mem_restRefs_of main_v17 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c)⟩)
    (run_main m ρ)

end Cert.KFinal

end
-- ==== Proof.lean ====
/-
  The certificate: a tiled feed-forward kernel against its plain reference, on the extended reals.

  Both programs compute, for every row of the input, the same layer: two branches, each a dense layer plus twice a
  rank-16 correction; the gate's branch through gelu (tanh form) plus a tenth of softplus; the product of the two
  contracted with a down projection and a bias added. The kernel flattens the input's two leading axes, narrows its
  matrix operands to a shorter float format (the identity on the extended reals), walks a 16 × 16 grid of row blocks
  and intermediate tiles, accumulates the down projection's contraction tile by tile in a scratch accumulator that
  starts from zero, and writes each row block out, with the output bias, at its last tile. The reference contracts
  over all 8192 intermediate coordinates at once. A sum over 16 · 512 coordinates is the sum of its 16 tiles' sums,
  whatever the entries; the cube inside gelu is written in two orders of the same commutative product; the two
  spellings of softplus differ in a guard that never fires and in `0 − a` against `−a`. So the two results are one function
  of the argument arrays, and no finiteness of the inputs is used.

  The three frames are the generated ones (the reference's is its generated run with the result dropped); the ideal
  pass rewrote nothing, so there is nothing to preserve.
-/
import proofs.«132938_j19413252178269_1_alg».proof.Defs
import proofs.«132938_j19413252178269_1_alg».proof.Proof.Gen.Kernel
import proofs.«132938_j19413252178269_1_alg».proof.Proof.Gen.Kernel.Skeleton
import proofs.«132938_j19413252178269_1_alg».proof.Proof.Gen.Kernel.Launch
import proofs.«132938_j19413252178269_1_alg».proof.Proof.Gen.Kernel.Points
import proofs.«132938_j19413252178269_1_alg».proof.Proof.Gen.Kernel.Frame
import proofs.«132938_j19413252178269_1_alg».proof.Proof.Gen.KernelIdeal
import proofs.«132938_j19413252178269_1_alg».proof.Proof.Gen.KernelIdeal.Skeleton
import proofs.«132938_j19413252178269_1_alg».proof.Proof.Gen.KernelIdeal.Launch
import proofs.«132938_j19413252178269_1_alg».proof.Proof.Gen.KernelIdeal.Points
import proofs.«132938_j19413252178269_1_alg».proof.Proof.Gen.KernelIdeal.Frame
import proofs.«132938_j19413252178269_1_alg».proof.Proof.Gen.ReferenceIdeal
import proofs.«132938_j19413252178269_1_alg».proof.Proof.Gen.ReferenceIdeal.Run
import proofs.«132938_j19413252178269_1_alg».proof.Proof.Gen.ReferenceIdeal.Read
import proofs.«132938_j19413252178269_1_alg».proof.Proof.Gen.Pre_finite_inputs
import proofs.«132938_j19413252178269_1_alg».proof.Proof.RefSide
import proofs.«132938_j19413252178269_1_alg».proof.Proof.KFinal
import Idealize.ShloMosaic.Adequacy
import Idealize.ShloMosaic.Init

noncomputable section

namespace Cert.Proof

open Idealize.ShloMosaic Idealize.SL.Sem

/-- Run from memories that agree on the arguments, the two idealized programs end with the same result array: the layer
    over the argument arrays. -/
theorem algebraic : Cert.algebraic_KernelIdeal_ReferenceIdeal := by
  intro m ρ m' ρ' _ hagree
  refine ⟨fun c => Cert.Arrays.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), Cert.KFinal.krun m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14⟩ := hagree c
  rw [Cert.ReferenceIdeal.Read.val_main_v51_eq, Cert.RefSide.ref_eq, a0, a1, a2, a3, a4, a5, a6, a7, a8, a9, a10, a11, a12, a13, a14]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2)
    (Cert.ReferenceIdeal.Value.run (F := Ideal) m ρ),
  trivial,
  algebraic⟩

end Cert.Proof

end
